-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x256x1x1 : Shape := ⟨4, ![256, 256, 1, 1]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S64x256x56x56 .f32) (main_arg1 : FVec F S256x256x1x1 .f32) (main_arg2 : FVec F S256 .f32) (main_arg3 : FVec F S256 .f32) (main_arg4 : FVec F S256 .f32) (main_arg5 : FVec F S256 .f32) (main_arg6 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x256x1x1 .f32 := Host.absf main_arg1
  let main_cst_0 : FVec F S_ .f32 := constant S_ .f32 0x7F800000#32
  let main_v5 : FVec F S256x256x1x1 .f32 := broadcastInDim S256x256x1x1 ![] bcast_S_S256x256x1x1 main_cst_0
  let main_v6 : IVec S256x256x1x1 1 := cmpf .olt main_v4 main_v5
  let main_c_1 : IVec S_ 1 := constantI S_ 1 1#1
  let main_v7 : IVec S_ 1 := (fun x v => Host.reduce IntOp.andi x v reducesTo_S256x256x1x1_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S64x256x56x56 : Shape := ⟨4, ![64, 256, 56, 56]⟩
abbrev S256x256x1x1 : Shape := ⟨4, ![256, 256, 1, 1]⟩
abbrev S256 : Shape := ⟨1, ![256]⟩
abbrev S_ : Shape := ⟨0, ![]⟩
abbrev S256x256 : Shape := ⟨2, ![256, 256]⟩
abbrev S256x1 : Shape := ⟨2, ![256, 1]⟩
abbrev S64x256x3136 : Shape := ⟨3, ![64, 256, 3136]⟩
abbrev S1x256x3136 : Shape := ⟨3, ![1, 256, 3136]⟩
abbrev S256x3136 : Shape := ⟨2, ![256, 3136]⟩

abbrev nBuf : Space → Nat
  | .hbm => 26
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S256x256x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S64x256x3136, .f32⟩
  | .hbm, ⟨24, _⟩ => ⟨S64x256x3136, .f32⟩
  | .hbm, ⟨25, _⟩ => ⟨S64x256x56x56, .f32⟩
  | .local _ .vmem, ⟨0, _⟩ => ⟨S256x256, .f32⟩
  | .local _ .vmem, ⟨1, _⟩ => ⟨S256x1, .f32⟩
  | .local _ .vmem, ⟨2, _⟩ => ⟨S1x256x3136, .f32⟩
  | .local _ .vmem, ⟨3, _⟩ => ⟨S1x256x3136, .f32⟩
  | .local _ .vmem, ⟨4, _⟩ => ⟨S1x256x3136, .f32⟩
  | .local _ .vmem, ⟨5, _⟩ => ⟨S1x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  shapeCasts_S256x256x1x1_S256x256 : S256x256x1x1.ShapeCasts S256x256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S_S256x256 : S_.BroadcastsInDim S256x256 (![] : Fin 0 → Fin S256x256.rank)
  shapeCasts_S256_S256x1 : S256.ShapeCasts S256x1
  shapeCasts_S64x256x56x56_S64x256x3136 : S64x256x56x56.ShapeCasts S64x256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S256x3136_S256 : S256x3136.Reduces [1] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S256x3136_S1x256x3136 : S256x3136.ShapeCasts S1x256x3136
  shapeCasts_S64x256x3136_S64x256x56x56 : S64x256x3136.ShapeCasts S64x256x56x56
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x3136.size a ≤ S64x256x3136.size a
  hwx0_2 : ∀ i : grid0.Coords, EltTy.bits .f32 = 32 ∨ (Rect.block (s := S64x256x3136) S1x256x3136.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3136.size a ≤ S64x256x3136.size a
  hwx0_3 : ∀ i : grid0.Coords, EltTy.bits .f32 = 32 ∨ (Rect.block (s := S64x256x3136) S1x256x3136.size (cc0_transform_3 i) (hinb0_3 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v9) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256x3136.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256x256x1x1 : Shape := ⟨4, ![256, 256, 1, 1]⟩
abbrev S256 : Shape := ⟨1, ![256]⟩
abbrev S64x256x3136 : Shape := ⟨3, ![64, 256, 3136]⟩
abbrev S_ : Shape := ⟨0, ![]⟩
abbrev S64x256x3200 : Shape := ⟨3, ![64, 256, 3200]⟩
abbrev S64x256x1 : Shape := ⟨3, ![64, 256, 1]⟩
abbrev S1x256x128 : Shape := ⟨3, ![1, 256, 128]⟩
abbrev S1x256x1 : Shape := ⟨3, ![1, 256, 1]⟩
abbrev S1x256 : Shape := ⟨2, ![1, 256]⟩
abbrev S256x256 : Shape := ⟨2, ![256, 256]⟩
abbrev S256x1 : Shape := ⟨2, ![256, 1]⟩
abbrev S64x256 : Shape := ⟨2, ![64, 256]⟩

abbrev nBuf : Space → Nat
  | .hbm => 45
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256x256x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S64x256x3136, .f32⟩
  | .hbm, ⟨8, _⟩ => ⟨S_, .i32⟩
  | .hbm, ⟨9, _⟩ => ⟨S_, .f32⟩
  | .hbm, ⟨10, _⟩ => ⟨S64x256x3200, .f32⟩
  | .hbm, ⟨11, _⟩ => ⟨S64x256x1, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x256, .f32⟩
  | .hbm, ⟨18, _⟩ => ⟨S256x1, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S64x256, .f32⟩
  | .hbm, ⟨29, _⟩ => ⟨S64x256, .f32⟩
  | .hbm, ⟨30, _⟩ => ⟨S1x256, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S64x256, .f32⟩
  | .hbm, ⟨35, _⟩ => ⟨S_, .f32⟩
  | .hbm, ⟨36, _⟩ => ⟨S64x256, .f32⟩
  | .hbm, ⟨37, _⟩ => ⟨S64x256, .f32⟩
  | .hbm, ⟨38, _⟩ => ⟨S_, .f32⟩
  | .hbm, ⟨39, _⟩ => ⟨S64x256, .f32⟩
  | .hbm, ⟨40, _⟩ => ⟨S64x256, .f32⟩
  | .hbm, ⟨41, _⟩ => ⟨S64x256x1, .f32⟩
  | .hbm, ⟨42, _⟩ => ⟨S64x256x3200, .f32⟩
  | .hbm, ⟨43, _⟩ => ⟨S64x256x3136, .f32⟩
  | .hbm, ⟨44, _⟩ => ⟨S64x256x56x56, .f32⟩
  | .local _ .vmem, ⟨0, _⟩ => ⟨S1x256x128, .f32⟩
  | .local _ .vmem, ⟨1, _⟩ => ⟨S1x256x128, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![64, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![64, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64x256x56x56_S64x256x3136 : S64x256x56x56.ShapeCasts S64x256x3136
  pads_S64x256x3136_S64x256x3200_000_000_0640 : S64x256x3136.Pads (![0, 0, 0] : Fin 3 → Nat) ![0, 0, 64] ![0, 0, 0] S64x256x3200
  h_S_ : 0 < S_.numel
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x128_S1x256x128_0_0_0 : ∀ a, (![0, 0, 0] : Fin 3 → Nat) a + S1x256x128.size a ≤ S1x256x128.size a
  h_S1x256x128 : 0 < S1x256x128.numel
  shapeCasts_S1x256x128_S1x256x128 : S1x256x128.ShapeCasts S1x256x128
  reduces_S1x256x128_S1x256 : S1x256x128.Reduces [2] S1x256
  shapeCasts_S1x256_S1x256x1 : S1x256.ShapeCasts S1x256x1
  bcast_S_S256 : S_.BroadcastsInDim S256 (![] : Fin 0 → Fin S256.rank)
  shapeCasts_S256x256x1x1_S256x256 : S256x256x1x1.ShapeCasts S256x256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S_S256x256 : S_.BroadcastsInDim S256x256 (![] : Fin 0 → Fin S256x256.rank)
  shapeCasts_S64x256x1_S64x256 : S64x256x1.ShapeCasts S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  shapeCasts_S64x256_S64x256x1 : S64x256.ShapeCasts S64x256x1
  broadcasts_S1x256x1_S1x256x128 : S1x256x1.Broadcasts S1x256x128
  slices_S64x256x3200_S64x256x3136_0_0_0 : S64x256x3200.Slices ![0, 0, 0] S64x256x3136
  shapeCasts_S64x256x3136_S64x256x56x56 : S64x256x3136.ShapeCasts S64x256x56x56
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S64x256x3200.size a
  hwx0_0 : ∀ i : grid0.Coords, EltTy.bits .f32 = 32 ∨ (Rect.block (s := S64x256x3200) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S64x256x1.size a
  hwx0_1 : ∀ i : grid0.Coords, EltTy.bits .f32 = 32 ∨ (Rect.block (s := S64x256x1) S1x256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S64x256x1.size a
  hwx1_0 : ∀ i : grid1.Coords, EltTy.bits .f32 = 32 ∨ (Rect.block (s := S64x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S64x256x3200.size a
  hwx1_1 : ∀ i : grid1.Coords, EltTy.bits .f32 = 32 ∨ (Rect.block (s := S64x256x3200) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S64x256x3200.size a
  hwx1_2 : ∀ i : grid1.Coords, EltTy.bits .f32 = 32 ∨ (Rect.block (s := S64x256x3200) S1x256x128.size (cc1_transform_2 i) (hinb1_2 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v1) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v28) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The mathematics of the gated channel mixer, index by index over the extended reals, in the two arrangements the
  two programs compute it.

  Both programs take an activation `x[b, c, p]` (64 × 256 × 3136 after flattening the two spatial axes), a 1×1
  convolution weight `w[o, i]`, and the per-channel vectors `cb` (convolution bias), `γ, β, μ, var` (batch-norm scale,
  shift, mean, variance). With `scale o = γ o · rsqrt(var o + ε)`, the folded weight is `wt o i = (w o i · scale o) · (1/HW)`
  and the folded bias `bias o = (cb o − μ o) · scale o + β o`; the gate of batch element `b` and channel `o` is the logistic
  function of `∑ᵢ wt o i · pooled b i + bias o`, where `pooled b i = ∑ₚ x[b, i, p]`; the result is `x[b, c, p] · gate b c`.

  The first arrangement (`outK`) sums each channel's 3136 entries at once, multiplies weight by pooled sum, and applies
  the logistic function as one operation. The second (`outR`) pads the spatial axis with zeros to 3200, sums it tile by
  tile (25 tiles of 128, added in order onto a zero), multiplies pooled sum by weight, and spells the logistic
  function out as `1 / (1 + exp(−z))`. The literal words `ε`, `1/HW` and `1.0` are kept as their bit patterns: they are
  the same words on both sides (only `1.0` is evaluated, to identify the spelled-out logistic function).
-/
import Idealize.ShloMosaic.PureOps.Ideal
import Idealize.ShloMosaic.PureOps.Ideal.Laws
import Idealize.ShloMosaic.Lib.ValueIdx

noncomputable section

namespace Cert.MixerSpec

open Idealize.ShloMosaic

/-- The batch-norm epsilon `1e-5` as the f32 word both programs carry. -/
abbrev eps : EReal := Ideal.ofBits .f32 0x3727C5AC#32
/-- The mean factor `1/3136` as the f32 word both programs carry. -/
abbrev invHW : EReal := Ideal.ofBits .f32 0x39A72F05#32
/-- The f32 word of `1.0`. -/
abbrev one : EReal := Ideal.ofBits .f32 0x3F800000#32

variable (x : Fin 64 → Fin 256 → Fin 3136 → EReal) (w : Fin 256 → Fin 256 → EReal)
  (cb γ β μ var : Fin 256 → EReal)

/-- The batch-norm scale of output channel `o`. -/
def scale (o : Fin 256) : EReal := γ o * Ideal.rsqrt (var o + eps)
/-- The folded weight: convolution weight times batch-norm scale times the mean factor. -/
def wt (o i : Fin 256) : EReal := w o i * scale γ var o * invHW
/-- The folded bias. -/
def bias (o : Fin 256) : EReal := (cb o - μ o) * scale γ var o + β o

/-- A channel's spatial sum, all 3136 entries at once. -/
def pooled (b : Fin 64) (c : Fin 256) : EReal := ∑ l : Fin 3136, x b c l
/-- The gate, first arrangement. -/
def gateK (b : Fin 64) (o : Fin 256) : EReal :=
  Ideal.logistic ((∑ i : Fin 256, wt w γ var o i * pooled x b i) + bias cb γ β μ var o)
/-- The result, first arrangement. -/
def outK (b : Fin 64) (c : Fin 256) (l : Fin 3136) : EReal := x b c l * gateK x w cb γ β μ var b c

/-- The spatial axis padded with zeros (positions 3136 … 3199 and beyond). -/
def xpad (b : Fin 64) (c : Fin 256) (p : ℕ) : EReal := if h : p < 3136 then x b c ⟨p, h⟩ else 0
/-- The sum of tile `j`: 128 consecutive padded positions. -/
def tileSum (b : Fin 64) (c : Fin 256) (j : ℕ) : EReal := ∑ l : Fin 128, xpad x b c (128 * j + l.val)
/-- The running sum after tile `n`: the zero the accumulator is reset to, then the tiles added in order. -/
def chain (b : Fin 64) (c : Fin 256) : ℕ → EReal
  | 0 => 0 + tileSum x b c 0
  | n + 1 => chain b c n + tileSum x b c (n + 1)
/-- A channel's spatial sum, tile by tile over the padded axis. -/
def pooledR (b : Fin 64) (c : Fin 256) : EReal := chain x b c 24
/-- The gate, second arrangement. -/
def gateR (b : Fin 64) (o : Fin 256) : EReal :=
  Ideal.div one (one + Ideal.exp (-((∑ i : Fin 256, pooledR x b i * wt w γ var o i) + bias cb γ β μ var o)))
/-- The result, second arrangement. -/
def outR (b : Fin 64) (c : Fin 256) (l : Fin 3136) : EReal := x b c l * gateR x w cb γ β μ var b c

/-! ## The arrays' coordinates -/

/-- The activation array read at (batch, channel, flattened position): position `l` is row `l / 56`, column `l % 56`. -/
def xOf (a0 : (⟨4, ![64, 256, 56, 56]⟩ : Shape).Idx → EReal) (b : Fin 64) (c : Fin 256) (l : Fin 3136) : EReal :=
  a0 (ValueIdx.ix4 b c (⟨l.val / 56, by have := l.isLt; omega⟩ : Fin 56) (⟨l.val % 56, by omega⟩ : Fin 56))
/-- The convolution weight read at (output channel, input channel). -/
def wOf (a1 : (⟨4, ![256, 256, 1, 1]⟩ : Shape).Idx → EReal) (o i : Fin 256) : EReal :=
  a1 (ValueIdx.ix4 o i (0 : Fin 1) (0 : Fin 1))
/-- A per-channel vector read at a channel. -/
def vOf (a : (⟨1, ![256]⟩ : Shape).Idx → EReal) (o : Fin 256) : EReal := a (ValueIdx.ix1 o)

/-- The flattened position of (row, column). -/
def flat (h : Fin 56) (v : Fin 56) : Fin 3136 := ⟨56 * h.val + v.val, by have := h.isLt; have := v.isLt; omega⟩

/-- The whole result array, first arrangement, as a function of the seven argument arrays (activation, weight,
    convolution bias, batch-norm γ, β, mean, variance — the programs' argument order). -/
def resultK (a0 : (⟨4, ![64, 256, 56, 56]⟩ : Shape).Idx → EReal) (a1 : (⟨4, ![256, 256, 1, 1]⟩ : Shape).Idx → EReal)
    (a2 a3 a4 a5 a6 : (⟨1, ![256]⟩ : Shape).Idx → EReal) : (⟨4, ![64, 256, 56, 56]⟩ : Shape).Idx → EReal :=
  fun j => outK (xOf a0) (wOf a1) (vOf a2) (vOf a3) (vOf a4) (vOf a5) (vOf a6) (j 0) (j 1) (flat (j 2) (j 3))
/-- The whole result array, second arrangement. -/
def resultR (a0 : (⟨4, ![64, 256, 56, 56]⟩ : Shape).Idx → EReal) (a1 : (⟨4, ![256, 256, 1, 1]⟩ : Shape).Idx → EReal)
    (a2 a3 a4 a5 a6 : (⟨1, ![256]⟩ : Shape).Idx → EReal) : (⟨4, ![64, 256, 56, 56]⟩ : Shape).Idx → EReal :=
  fun j => outR (xOf a0) (wOf a1) (vOf a2) (vOf a3) (vOf a4) (vOf a5) (vOf a6) (j 0) (j 1) (flat (j 2) (j 3))

end Cert.MixerSpec

end
-- ==== Proof.SpecAlgebra.lean ====
/-
  The two arrangements of the gated channel mixer give the same extended real at every index.

  Three things differ between them, and each is an identity of the extended reals that needs no finiteness
  (entries may be +∞ or −∞ throughout: only the commutative-monoid laws of addition, the commutativity of
  multiplication, and the definition of the logistic function are used).

  (i) The pooled sum.  The second arrangement pads a channel's 3136 entries with zeros to 3200 = 25 · 128 positions,
  sums each block of 128 consecutive positions, and adds the 25 block sums in order onto a zero:
  (((0 + s₀) + s₁) + … ) + s₂₄.  Because addition is associative and 0 + a = a, the running sum after block n is the sum
  of the first 128 · (n + 1) padded positions (induction on n: a sum over the first N + 128 positions is the sum over
  the first N plus the sum over the next 128).  At n = 24 this is the sum over all 3200 positions; splitting it at 3136,
  the last 64 terms are padding zeros and add nothing, and the first 3136 terms are the channel's own entries.  So it is
  the sum the first arrangement takes at once.

  (ii) The dot product.  One arrangement multiplies weight by pooled sum, the other pooled sum by weight; multiplication
  of extended reals is commutative, term by term.

  (iii) The logistic function.  It is defined as 1 / (1 + exp(−z)); the second arrangement writes exactly this with the
  binary32 word 0x3F800000 in place of each 1, and that word denotes 1.
-/
import proofs.«127554_g2000504790337708_pallasbulk_234_2_alg».proof.Proof.Spec
import Idealize.ShloMosaic.Lib.IdealHost
import Mathlib.Algebra.BigOperators.Intervals
import Mathlib.Algebra.BigOperators.Fin

noncomputable section

namespace Cert.MixerSpec

open Idealize.ShloMosaic

variable (x : Fin 64 → Fin 256 → Fin 3136 → EReal) (w : Fin 256 → Fin 256 → EReal)
  (cb γ β μ var : Fin 256 → EReal)

/-! ## (i) The tiled sum over the padded axis is the plain sum -/

/-- A padded position below 3136 holds the channel's own entry. -/
theorem xpad_of_lt (b : Fin 64) (c : Fin 256) {p : ℕ} (h : p < 3136) : xpad x b c p = x b c ⟨p, h⟩ :=
  dif_pos h

/-- A padded position from 3136 on holds zero. -/
theorem xpad_of_ge (b : Fin 64) (c : Fin 256) {p : ℕ} (h : 3136 ≤ p) : xpad x b c p = 0 :=
  dif_neg (by omega)

/-- A tile's sum, written over the first 128 naturals instead of over `Fin 128`. -/
theorem tileSum_eq_range (b : Fin 64) (c : Fin 256) (j : ℕ) :
    tileSum x b c j = ∑ l ∈ Finset.range 128, xpad x b c (128 * j + l) := by
  unfold tileSum
  exact Fin.sum_univ_eq_sum_range (fun l => xpad x b c (128 * j + l)) 128

/-- The running sum after tile `n` is the sum of the first `128 · (n + 1)` padded positions: the leading zero is
    absorbed (`0 + a = a`), and each further tile extends the range by the next 128 positions. -/
theorem chain_eq_range (b : Fin 64) (c : Fin 256) (n : ℕ) :
    chain x b c n = ∑ p ∈ Finset.range (128 * (n + 1)), xpad x b c p := by
  induction n with
  | zero =>
    rw [chain, zero_add, tileSum_eq_range]
    simp only [Nat.mul_zero, Nat.zero_add, Nat.mul_one]
  | succ n ih =>
    rw [chain, ih, tileSum_eq_range]
    rw [show 128 * (n + 1 + 1) = 128 * (n + 1) + 128 by ring, Finset.sum_range_add]

/-- The tiled, padded spatial sum is the plain spatial sum: of the 3200 padded positions the last 64 are zeros, and
    the first 3136 are the channel's entries. -/
theorem pooledR_eq_pooled (b : Fin 64) (c : Fin 256) : pooledR x b c = pooled x b c := by
  unfold pooledR pooled
  rw [chain_eq_range]
  rw [show 128 * (24 + 1) = 3136 + 64 by norm_num, Finset.sum_range_add]
  have htail : ∑ q ∈ Finset.range 64, xpad x b c (3136 + q) = 0 :=
    Finset.sum_eq_zero (fun q _ => xpad_of_ge x b c (by omega))
  rw [htail, add_zero, ← Fin.sum_univ_eq_sum_range (fun p => xpad x b c p) 3136]
  exact Finset.sum_congr rfl (fun l _ => xpad_of_lt x b c l.isLt)

/-! ## (iii) The binary32 word of 1.0 -/

/-- The word `0x3F800000` (sign 0, biased exponent 127, fraction 0) denotes the extended real 1. -/
theorem one_eq : one = (1 : EReal) := Ideal.ofBits_one_f32

/-! ## (ii), (iii) The gate, and the result -/

/-- The two gates agree: the dot product's factors commute term by term, the pooled sums agree, and the spelled-out
    quotient `1 / (1 + exp(−z))` is the logistic function by definition. -/
theorem gateR_eq_gateK (b : Fin 64) (o : Fin 256) :
    gateR x w cb γ β μ var b o = gateK x w cb γ β μ var b o := by
  have hdot : ∑ i : Fin 256, pooledR x b i * wt w γ var o i = ∑ i : Fin 256, wt w γ var o i * pooled x b i :=
    Finset.sum_congr rfl (fun i _ => by rw [pooledR_eq_pooled, mul_comm])
  unfold gateR gateK Ideal.logistic
  rw [one_eq, hdot]

/-- The two arrangements give the same result at every batch element, channel and position. -/
theorem outR_eq_outK (x : Fin 64 → Fin 256 → Fin 3136 → EReal) (w : Fin 256 → Fin 256 → EReal)
    (cb γ β μ var : Fin 256 → EReal) :
    outR x w cb γ β μ var = outK x w cb γ β μ var := by
  funext b c l
  unfold outR outK
  rw [gateR_eq_gateK]

/-- The two result arrays, as functions of the seven argument arrays, are equal. -/
theorem resultR_eq_resultK (a0 : (⟨4, ![64, 256, 56, 56]⟩ : Shape).Idx → EReal)
    (a1 : (⟨4, ![256, 256, 1, 1]⟩ : Shape).Idx → EReal) (a2 a3 a4 a5 a6 : (⟨1, ![256]⟩ : Shape).Idx → EReal) :
    resultR a0 a1 a2 a3 a4 a5 a6 = resultK a0 a1 a2 a3 a4 a5 a6 := by
  funext j
  unfold resultR resultK
  rw [outR_eq_outK]

end Cert.MixerSpec

end
-- ==== Proof.KernelValueHost.lean ====
/-
  The three arrays the host writes before the region — the folded weight, the folded bias as a column, and the
  activation with its two spatial axes flattened — each as one pure function of the argument arrays, and each
  read at an index as the specification's `wt`, `bias` and `xOf`.
-/
import proofs.«127554_g2000504790337708_pallasbulk_234_2_alg».proof.Proof.Gen.KernelIdeal.Frame
import proofs.«127554_g2000504790337708_pallasbulk_234_2_alg».proof.Proof.Spec
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx

/-! ## The host's terms -/

/-- The batch-norm scale vector: γ · rsqrt(var + ε). -/
def scaleV (a3 a6 : FVec Ideal S256 .f32) : FVec Ideal S256 .f32 :=
  mulf a3 (Host.rsqrt (addf a6 (broadcastInDim S256 ![] bcast_S_S256 (constant (F := Ideal) S_ .f32 0x3727C5AC#32))))

/-- The folded weight: (w · scale, the scale spread along the rows) · 1/HW. -/
def wtV (a1 : FVec Ideal S256x256x1x1 .f32) (a3 a6 : FVec Ideal S256 .f32) : FVec Ideal S256x256 .f32 :=
  mulf (mulf (shapeCast S256x256 a1 shapeCasts_S256x256x1x1_S256x256)
      (broadcastInDim S256x256 ![0, 1] bcast_S256x1_S256x256_0_1 (broadcastInDim S256x1 ![0] bcast_S256_S256x1_0 (scaleV a3 a6))))
    (broadcastInDim S256x256 ![] bcast_S_S256x256 (constant (F := Ideal) S_ .f32 0x39A72F05#32))

/-- The folded bias, as a column: (cb − μ) · scale + β. -/
def biasV (a2 a3 a4 a5 a6 : FVec Ideal S256 .f32) : FVec Ideal S256x1 .f32 :=
  shapeCast S256x1 (addf (mulf (subf a2 a5) (scaleV a3 a6)) a4) shapeCasts_S256_S256x1

/-- The activation with its spatial axes flattened. -/
def xV (a0 : FVec Ideal S64x256x56x56 .f32) : FVec Ideal S64x256x3136 .f32 :=
  shapeCast S64x256x3136 a0 shapeCasts_S64x256x56x56_S64x256x3136

/-! ## The host's terms read at an index -/

/-- The scale vector at a channel. -/
theorem scaleV_apply (a3 a6 : FVec Ideal S256 .f32) (o : Fin 256) :
    scaleV a3 a6 (ix1 o) = Cert.MixerSpec.scale (Cert.MixerSpec.vOf a3) (Cert.MixerSpec.vOf a6) o := rfl

/-- The folded weight at (output channel, input channel). -/
theorem wtV_apply (a1 : FVec Ideal S256x256x1x1 .f32) (a3 a6 : FVec Ideal S256 .f32) (o i : Fin 256) :
    wtV a1 a3 a6 (ix2 o i)
      = Cert.MixerSpec.wt (Cert.MixerSpec.wOf a1) (Cert.MixerSpec.vOf a3) (Cert.MixerSpec.vOf a6) o i := by
  have e1 : shapeCast S256x256 a1 shapeCasts_S256x256x1x1_S256x256 (ix2 o i) = a1 (ix4 o i (0 : Fin 1) (0 : Fin 1)) :=
    shapeCast_apply a1 _ (ix2 o i) (ix4 o i (0 : Fin 1) (0 : Fin 1)) (by
      rw [Shape.rowMajor_val_four, Shape.rowMajor_val_two]
      show ((o.val * 256 + i.val) * 1 + 0) * 1 + 0 = o.val * 256 + i.val
      omega)
  have e2 : broadcastInDim S256x256 ![0, 1] bcast_S256x1_S256x256_0_1
        (broadcastInDim S256x1 ![0] bcast_S256_S256x1_0 (scaleV a3 a6)) (ix2 o i) = scaleV a3 a6 (ix1 o) :=
    (broadcastInDim_apply _ _ _ (ix2 o i) (ix2 o (0 : Fin 1)) (fun a => match a with | ⟨0, _⟩ => rfl | ⟨1, _⟩ => rfl)).trans
      (broadcastInDim_apply _ _ _ (ix2 o (0 : Fin 1)) (ix1 o) (fun a => match a with | ⟨0, _⟩ => rfl))
  unfold wtV Cert.MixerSpec.wt Cert.MixerSpec.wOf
  show shapeCast S256x256 a1 shapeCasts_S256x256x1x1_S256x256 (ix2 o i)
      * broadcastInDim S256x256 ![0, 1] bcast_S256x1_S256x256_0_1 (broadcastInDim S256x1 ![0] bcast_S256_S256x1_0 (scaleV a3 a6)) (ix2 o i)
      * Ideal.ofBits .f32 0x39A72F05#32 = _
  rw [e1, e2, scaleV_apply]

/-- The folded bias column at a channel. -/
theorem biasV_apply (a2 a3 a4 a5 a6 : FVec Ideal S256 .f32) (o : Fin 256) (u : Fin 1) :
    biasV a2 a3 a4 a5 a6 (ix2 o u)
      = Cert.MixerSpec.bias (Cert.MixerSpec.vOf a2) (Cert.MixerSpec.vOf a3) (Cert.MixerSpec.vOf a4) (Cert.MixerSpec.vOf a5) (Cert.MixerSpec.vOf a6) o := by
  unfold biasV
  refine (shapeCast_apply _ _ (ix2 o u) (ix1 o) ?_).trans ?_
  · rw [Shape.rowMajor_val_one, Shape.rowMajor_val_two]
    show o.val = o.val * 1 + u.val
    omega
  · show (a2 (ix1 o) - a5 (ix1 o)) * scaleV a3 a6 (ix1 o) + a4 (ix1 o) = _
    rw [scaleV_apply]
    rfl

/-- The flattened activation at (batch, channel, position). -/
theorem xV_apply (a0 : FVec Ideal S64x256x56x56 .f32) (b : Fin 64) (ch : Fin 256) (l : Fin 3136) :
    xV a0 (ix3 b ch l) = Cert.MixerSpec.xOf a0 b ch l := by
  unfold xV Cert.MixerSpec.xOf
  refine shapeCast_apply a0 _ (ix3 b ch l) _ ?_
  rw [Shape.rowMajor_val_four, Shape.rowMajor_val_three]
  show ((b.val * 256 + ch.val) * 56 + l.val / 56) * 56 + l.val % 56 = (b.val * 256 + ch.val) * 3136 + l.val
  omega

variable (m : (ℓ : Loc nD τ sig) → Buf (Elt Ideal) ℓ)

/-- The region finds the folded weight in its first window's array. -/
theorem V_v9 (c : Dev nD) : (V m c main_v9 : S256x256.Idx → EReal)
    = wtV (m ((c.tc : Thread nD τ).loc main_arg1)) (m ((c.tc : Thread nD τ).loc main_arg3)) (m ((c.tc : Thread nD τ).loc main_arg6)) := by
  show StableHlo.after hostOps0 (fun b => m (c, b)) (Proc.devRef .tc main_v9) = _
  after_results
  rfl

/-- The region finds the folded bias in its second window's array. -/
theorem V_v13 (c : Dev nD) : (V m c main_v13 : S256x1.Idx → EReal)
    = biasV (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  show StableHlo.after hostOps0 (fun b => m (c, b)) (Proc.devRef .tc main_v13) = _
  after_results
  rfl

/-- The region finds the flattened activation in its third window's array. -/
theorem V_v14 (c : Dev nD) : (V m c main_v14 : S64x256x3136.Idx → EReal)
    = xV (m ((c.tc : Thread nD τ).loc main_arg0)) := by
  show StableHlo.after hostOps0 (fun b => m (c, b)) (Proc.devRef .tc main_v14) = _
  after_results
  rfl

end Cert.KernelIdeal.KValue

end
-- ==== Proof.KernelValueBody.lean ====
/-
  One grid point's arithmetic, read at an index: the stored block is the loaded slab times the gate of its row, the gate
  the logistic function of the weight row times the slab's row sums, plus the bias.
-/
import proofs.«127554_g2000504790337708_pallasbulk_234_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic Idealize.SL.Sem
open Idealize.ShloMosaic.ValueIdx

/-- The matrix product's dimension numbers: rows of the weight against the one column of row sums. -/
abbrev MM : DotDims S256x256 S256x1 S256x1 := dot_S256x256_S256x1_S256x1_1_0_0_1_n_n

variable (x0 : FVec Ideal S256x256 .f32) (x1 : FVec Ideal S256x1 .f32) (x2 : FVec Ideal S1x256x3136 .f32)

/-- The loaded block as a 256 × 3136 matrix. -/
def slab : FVec Ideal S256x3136 .f32 := shapeCast S256x3136 x2 shapeCasts_S1x256x3136_S256x3136
/-- Its row sums. -/
def rowSums : FVec Ideal S256 .f32 :=
  multiReduction .add [1] S256 (slab x2) 0x00000000#32 reduces_S256x3136_S256 (.inl rfl) rfl
/-- The weight times the column of row sums. -/
def mixed : FVec Ideal S256x1 .f32 :=
  matmul MM none (shapeCast S256x256 x0 shapeCasts_S256x256_S256x256) (shapeCast S256x1 (rowSums x2) shapeCasts_S256_S256x1)
    (constant S256x1 .f32 0x00000000#32)
/-- The gate column. -/
def gateCol : FVec Ideal S256x1 .f32 := logistic (addf (mixed x0 x2) (shapeCast S256x1 x1 shapeCasts_S256x1_S256x1))

/-- The stored value is the slab times the gate column spread along the rows, as a block. -/
theorem pay_eq : k0_pay1 x2 x0 x1
    = shapeCast S1x256x3136 (mulf (slab x2) (broadcastTo S256x3136 (gateCol x0 x1 x2) broadcasts_S256x1_S256x3136))
        shapeCasts_S256x3136_S1x256x3136 := rfl

/-- The slab at (row, lane). -/
theorem slab_apply (r : Fin 256) (l : Fin 3136) : slab x2 (ix2 r l) = x2 (ix3 (0 : Fin 1) r l) :=
  shapeCast_1ab_ab_apply x2 _ r l

/-- A row sum is the sum of the row's 3136 entries. -/
theorem rowSums_apply (r : Fin 256) : rowSums x2 (ix1 r) = ∑ k : Fin 3136, x2 (ix3 (0 : Fin 1) r k) := by
  unfold rowSums
  refine (Ideal.multiReduction_add_single (slab x2) 0x00000000#32 reduces_S256x3136_S256 (.inl rfl) rfl (ix1 r)).trans ?_
  refine Finset.sum_congr rfl fun k _ => ?_
  have e : Shape.Reduces.lift reduces_S256x3136_S256 (ix1 r) k = ix2 r k := by
    funext a; apply Fin.ext
    match a with
    | ⟨0, _⟩ => rfl
    | ⟨1, _⟩ => rfl
  rw [e]
  exact slab_apply x2 r k

/-- The product at a row: the weight row against the row sums. -/
theorem mixed_apply (r : Fin 256) (u : Fin 1) :
    mixed x0 x2 (ix2 r u) = ∑ i : Fin 256, x0 (ix2 r i) * rowSums x2 (ix1 i) := by
  unfold mixed
  show FloatOps.matmul MM none _ _ (constant S256x1 .f32 0x00000000#32) (ix2 r u) = _
  rw [Ideal.matmul_constant_zero_apply, ← Equiv.sum_comp (contrEquiv1 MM 256 rfl rfl).symm]
  refine Finset.sum_congr rfl fun c _ => ?_
  have c2 := contrEquiv1_symm_val MM 256 rfl rfl c
  have l2 : MM.lhsIdx (ix2 r u) ((contrEquiv1 MM 256 rfl rfl).symm c) = ix2 r c := by
    funext ax; apply Fin.ext
    match ax with
    | ⟨0, _⟩ => simp [DotDims.lhsIdx, MM, dot_S256x256_S256x1_S256x1_1_0_0_1_n_n]; rfl
    | ⟨1, _⟩ => simp [DotDims.lhsIdx, MM, dot_S256x256_S256x1_S256x1_1_0_0_1_n_n]; exact c2
  have r2 : MM.rhsIdx (ix2 r u) ((contrEquiv1 MM 256 rfl rfl).symm c) = ix2 c u := by
    funext ax; apply Fin.ext
    match ax with
    | ⟨0, _⟩ => simp [DotDims.rhsIdx, MM, dot_S256x256_S256x1_S256x1_1_0_0_1_n_n]; exact c2
    | ⟨1, _⟩ => simp [DotDims.rhsIdx, MM, dot_S256x256_S256x1_S256x1_1_0_0_1_n_n]
  rw [l2, r2, shapeCast_self]
  refine congrArg (x0 (ix2 r c) * ·) ?_
  refine shapeCast_apply _ _ (ix2 c u) (ix1 c) ?_
  rw [Shape.rowMajor_val_one, Shape.rowMajor_val_two]
  show c.val = c.val * 1 + u.val
  omega

/-- The gate of a row. -/
theorem gateCol_apply (r : Fin 256) (u : Fin 1) :
    gateCol x0 x1 x2 (ix2 r u)
      = Ideal.logistic ((∑ i : Fin 256, x0 (ix2 r i) * ∑ k : Fin 3136, x2 (ix3 (0 : Fin 1) i k)) + x1 (ix2 r u)) := by
  unfold gateCol
  show Ideal.logistic (mixed x0 x2 (ix2 r u) + shapeCast S256x1 x1 shapeCasts_S256x1_S256x1 (ix2 r u)) = _
  rw [mixed_apply, shapeCast_self]
  refine congrArg (fun s => Ideal.logistic (s + x1 (ix2 r u))) ?_
  exact Finset.sum_congr rfl fun i _ => by rw [rowSums_apply]

/-- THE STORED BLOCK at (0, row, lane): the loaded entry times its row's gate. -/
theorem pay_apply (u : Fin 1) (r : Fin 256) (l : Fin 3136) :
    k0_pay1 x2 x0 x1 (ix3 u r l)
      = x2 (ix3 (0 : Fin 1) r l)
        * Ideal.logistic ((∑ i : Fin 256, x0 (ix2 r i) * ∑ k : Fin 3136, x2 (ix3 (0 : Fin 1) i k)) + x1 (ix2 r (0 : Fin 1))) := by
  rw [pay_eq]
  refine (shapeCast_ab_1ab_apply _ _ u r l).trans ?_
  show slab x2 (ix2 r l) * broadcastTo S256x3136 (gateCol x0 x1 x2) broadcasts_S256x1_S256x3136 (ix2 r l) = _
  rw [slab_apply]
  refine congrArg (x2 (ix3 (0 : Fin 1) r l) * ·) ?_
  refine (broadcastTo_apply _ _ (ix2 r l) (ix2 r (0 : Fin 1)) fun a => ?_).trans (gateCol_apply x0 x1 x2 r 0)
  match a with
  | ⟨0, _⟩ => rfl
  | ⟨1, _⟩ => rfl

end Cert.KernelIdeal.KValue

end
-- ==== Proof.KernelValueBlocks.lean ====
/-
  From one grid point's block to the whole array: grid point t stages batch row t of the activation and the whole of
  the folded weight and bias, writes back batch row t of the result, and the 64 rows cover the array.
-/
import proofs.«127554_g2000504790337708_pallasbulk_234_2_alg».proof.Proof.KernelValueHost
import proofs.«127554_g2000504790337708_pallasbulk_234_2_alg».proof.Proof.KernelValueBody

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The region's result array, before the last reshape: the first arrangement at (batch, channel, position). -/
def outArr (a0 : FVec Ideal S64x256x56x56 .f32) (a1 : FVec Ideal S256x256x1x1 .f32) (a2 a3 a4 a5 a6 : FVec Ideal S256 .f32) :
    S64x256x3136.Idx → EReal := fun j =>
  Cert.MixerSpec.outK (Cert.MixerSpec.xOf a0) (Cert.MixerSpec.wOf a1) (Cert.MixerSpec.vOf a2) (Cert.MixerSpec.vOf a3)
    (Cert.MixerSpec.vOf a4) (Cert.MixerSpec.vOf a5) (Cert.MixerSpec.vOf a6) (j 0) (j 1) (j 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the weight's and the bias's block is always block (0, 0); the
    activation's and the result's block at point t is block (t, 0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch row a grid point works on. -/
def rowOf (t : Fin cfg0.N) : Fin 64 := ⟨t.val, by have h := t.isLt; have hN : cfg0.N = 64 := N_0; omega⟩

variable (m : (ℓ : Loc nD τ sig) → Buf (Elt Ideal) ℓ)

/-! ## The input blocks, read where they lie in their arrays -/

/-- The weight window's block is the whole folded weight. -/
theorem iblk0_apply (c : Dev nD) (t : Fin cfg0.N) (r i : Fin 256) :
    (iblk m c 0 t : FVec Ideal S256x256 .f32) (ix2 r i) = (V m c main_v9 : S256x256.Idx → EReal) (ix2 r i) := by
  obtain ⟨e0, e1, -⟩ := idx_facts t
  show (V m c main_v9 : S256x256.Idx → EReal) (((cfg0.win 0).blk t).view.emb (ix2 r i)) = _
  refine congrArg (V m c main_v9 : S256x256.Idx → EReal) ?_
  funext a; apply Fin.ext
  match a with
  | ⟨0, _⟩ => show win0_0.index t (0 : Fin 2) * 256 + 1 * r.val = r.val; rw [e0]; omega
  | ⟨1, _⟩ => show win0_0.index t (1 : Fin 2) * 256 + 1 * i.val = i.val; rw [e1]; omega

/-- The bias window's block is the whole folded bias column. -/
theorem iblk1_apply (c : Dev nD) (t : Fin cfg0.N) (r : Fin 256) (u : Fin 1) :
    (iblk m c 1 t : FVec Ideal S256x1 .f32) (ix2 r u) = (V m c main_v13 : S256x1.Idx → EReal) (ix2 r u) := by
  obtain ⟨-, -, e2, e3, -⟩ := idx_facts t
  show (V m c main_v13 : S256x1.Idx → EReal) (((cfg0.win 1).blk t).view.emb (ix2 r u)) = _
  refine congrArg (V m c main_v13 : S256x1.Idx → EReal) ?_
  funext a; apply Fin.ext
  match a with
  | ⟨0, _⟩ => show win0_1.index t (0 : Fin 2) * 256 + 1 * r.val = r.val; rw [e2]; omega
  | ⟨1, _⟩ => show win0_1.index t (1 : Fin 2) * 1 + 1 * u.val = u.val; rw [e3]; omega

/-- The activation window's block at point t is batch row t. -/
theorem iblk2_apply (c : Dev nD) (t : Fin cfg0.N) (u : Fin 1) (r : Fin 256) (l : Fin 3136) :
    (iblk m c 2 t : FVec Ideal S1x256x3136 .f32) (ix3 u r l)
      = (V m c main_v14 : S64x256x3136.Idx → EReal) (ix3 (rowOf t) r l) := by
  obtain ⟨-, -, -, -, e4, e5, e6, -⟩ := idx_facts t
  show (V m c main_v14 : S64x256x3136.Idx → EReal) (((cfg0.win 2).blk t).view.emb (ix3 u r l)) = _
  refine congrArg (V m c main_v14 : S64x256x3136.Idx → EReal) ?_
  funext a; apply Fin.ext
  match a with
  | ⟨0, _⟩ => show win0_2.index t (0 : Fin 3) * 1 + 1 * u.val = t.val; rw [e4]; omega
  | ⟨1, _⟩ => show win0_2.index t (1 : Fin 3) * 256 + 1 * r.val = r.val; rw [e5]; omega
  | ⟨2, _⟩ => show win0_2.index t (2 : Fin 3) * 3136 + 1 * l.val = l.val; rw [e6]; omega

/-- Where the result window's block at point t lies: batch row t. -/
theorem oblk_emb (t : Fin cfg0.N) (u : Fin 1) (r : Fin 256) (l : Fin 3136) :
    (((cfg0.win 3).blk t).view.emb (ix3 u r l) : S64x256x3136.Idx) = ix3 (rowOf t) r l := by
  obtain ⟨-, -, -, -, -, -, -, e7, e8, e9⟩ := idx_facts t
  funext a; apply Fin.ext
  match a with
  | ⟨0, _⟩ => show win0_3.index t (0 : Fin 3) * 1 + 1 * u.val = t.val; rw [e7]; omega
  | ⟨1, _⟩ => show win0_3.index t (1 : Fin 3) * 256 + 1 * r.val = r.val; rw [e8]; omega
  | ⟨2, _⟩ => show win0_3.index t (2 : Fin 3) * 3136 + 1 * l.val = l.val; rw [e9]; omega

/-! ## What a point writes back, the cover, the final array -/

/-- WHAT POINT t WRITES BACK is batch row t of the first arrangement's result. -/
theorem flushed_eq (c : Dev nD) (t : Fin cfg0.N) :
    (dats m 0 c).flushed 3 t = ((cfg0.win 3).blk t).view.read (Elt Ideal)
      (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show (cfg0.win 3).cut (grid0.coords t) ((dats m 0 c).after 3 t) = _
  rw [after0_3]
  unfold out0_3
  rw [View.canon_unit_zero hz3]
  simp only [View.ld_unit_zero (S := S1x256x3136) hz3, View.ld_unit_zero (S := S256x256) hz2, View.ld_unit_zero (S := S256x1) hz2]
  funext y
  obtain ⟨u, r, l, rfl⟩ : ∃ (u : Fin 1) (r : Fin 256) (l : Fin 3136), y = ix3 u r l :=
    ⟨y 0, y 1, y 2, eq_ix3 (n0 := 1) (n1 := 256) (n2 := 3136) y⟩
  show k0_pay1 (iblk m c 2 t) (iblk m c 0 t) (iblk m c 1 t) (ix3 u r l)
    = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 3).blk t).view.emb (ix3 u r l))
  rw [oblk_emb]
  refine (pay_apply (iblk m c 0 t) (iblk m c 1 t) (iblk m c 2 t) u r l).trans ?_
  simp only [iblk0_apply m c t, iblk1_apply m c t, iblk2_apply m c t]
  rw [V_v9, V_v13, V_v14]
  simp only [wtV_apply, biasV_apply, xV_apply]
  rfl

/-- An index of the array is in point t's block iff each coordinate is in the block's range on its axis. -/
theorem mem_blk (t : Fin cfg0.N) (i : S64x256x3136.Idx) :
    i ∈ ((cfg0.win 3).blk t).view.set ↔ ∀ a : Fin 3, win0_3.index t a * S1x256x3136.size a ≤ (i a).val
      ∧ (i a).val < win0_3.index t a * S1x256x3136.size a + S1x256x3136.size a := by
  show i ∈ ((View.whole main_v15).slice (win0_3.rect t)).set ↔ _
  rw [View.set_slice_whole, Rect.mem_set_unit]
  exact Iff.rfl

/-- Every index of the result array lies in the block of the point named by its batch coordinate. -/
theorem cover (i : S64x256x3136.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 256 := (i 1).isLt
  have h2 : (i 2).val < 3136 := (i 2).isLt
  obtain ⟨t, ht⟩ : ∃ t : Fin cfg0.N, t.val = (i 0).val := ⟨⟨(i 0).val, by omega⟩, rfl⟩
  obtain ⟨-, -, -, -, -, -, -, e7, e8, e9⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e7]; omega
  | ⟨1, _⟩ => show win0_3.index t (1 : Fin 3) * 256 ≤ (i 1).val ∧ (i 1).val < win0_3.index t (1 : Fin 3) * 256 + 256; rw [e8]; omega
  | ⟨2, _⟩ => show win0_3.index t (2 : Fin 3) * 3136 ≤ (i 2).val ∧ (i 2).val < win0_3.index t (2 : Fin 3) * 3136 + 3136; rw [e9]; omega

/-- THE RESULT ARRAY after the region: the first arrangement at every (batch, channel, position). -/
theorem final (c : Dev nD) : (dats m 0 c).arrAt 3 cfg0.N
    = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 3 (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (fun t _ => flushed_eq m c t) cover

end Cert.KernelIdeal.KValue

end
-- ==== Proof.KernelValueRun.lean ====
/-
  The host's last reshape of the region's result, and the kernel program's run read as the specification's first
  arrangement of the seven argument arrays.
-/
import proofs.«127554_g2000504790337708_pallasbulk_234_2_alg».proof.Proof.KernelValueBlocks

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- Unflattening the spatial axis of the first arrangement's array gives the specification's result: position
    (h, v) of the 56 × 56 grid is flattened position 56·h + v. -/
theorem reshape_outArr (a0 : FVec Ideal S64x256x56x56 .f32) (a1 : FVec Ideal S256x256x1x1 .f32) (a2 a3 a4 a5 a6 : FVec Ideal S256 .f32) :
    (shapeCast S64x256x56x56 (outArr a0 a1 a2 a3 a4 a5 a6) shapeCasts_S64x256x3136_S64x256x56x56 : S64x256x56x56.Idx → EReal)
      = Cert.MixerSpec.resultK a0 a1 a2 a3 a4 a5 a6 := by
  funext j
  obtain ⟨b, ch, h, v, rfl⟩ : ∃ (b : Fin 64) (ch : Fin 256) (h v : Fin 56), j = ix4 b ch h v := ⟨j 0, j 1, j 2, j 3, eq_ix4 j⟩
  refine (shapeCast_apply _ _ (ix4 b ch h v) (ix3 b ch (Cert.MixerSpec.flat h v)) ?_).trans rfl
  rw [Shape.rowMajor_val_three, Shape.rowMajor_val_four]
  show (b.val * 256 + ch.val) * 3136 + (56 * h.val + v.val) = ((b.val * 256 + ch.val) * 56 + h.val) * 56 + v.val
  omega

variable (m : (ℓ : Loc nD τ sig) → Buf (Elt Ideal) ℓ) (ρ : Dev nD → PrngReg)

/-- What the program's result buffer holds after the lines that follow the region. -/
theorem tail_eq (c : Dev nD) :
    Pipeline.afterTail₀ cfgs (dats m) 0 (V0 m) [hostOps1] c main_v16
      = Cert.MixerSpec.resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15)
      = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    (Pipeline.withArrays_arr spec0 launch0.win.arr_inj c (V0 m c) (fun w => (dats m 0 c).arrAt w cfg0.N) 3).trans (final m c)
  rw [e]
  exact reshape_outArr _ _ _ _ _ _ _

set_option backward.isDefEq.respectTransparency.types false in
/-- THE KERNEL PROGRAM'S RUN: every weakly fair execution terminates with the result buffer at the first arrangement of
    the argument arrays, and the arguments unchanged. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread nD τ).loc main_v16)
          = Cert.MixerSpec.resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.KValue

end
-- ==== Proof.RefPool.lean ====
/-
  The first region of the reference, read as values: the pooling kernel.

  Its grid has 64 × 25 points; point `t` stages tile `t % 25` (128 spatial positions of all 256 channels) of batch
  element `t / 25` of the zero-padded activation, and one [1,256,1] accumulator block per batch element. At the first
  tile of a batch element the body resets the accumulator to zero; at every tile it adds, per channel, the sum of the
  tile's 128 lanes. So after tile `j` the accumulator holds the ordered running sum `((0 + s₀) + s₁) + … + sⱼ` of the
  tile sums, by induction on `j`; the block is written back after tile 24 only, and those 64 write-backs tile the
  [64,256,1] array of pooled sums.
-/
import proofs.«127554_g2000504790337708_pallasbulk_234_2_alg».proof.Proof.Gen.ReferenceIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.ReferenceIdeal.RValue

open Cert.ReferenceIdeal Cert.ReferenceIdeal.Gen ValueIdx

/-! ## What one grid point of the pooling kernel leaves in the accumulator block -/

section AnyValues
variable {F : FTy → Type} [FloatOps F]

theorem hz3 : (![0, 0, 0] : Fin 3 → Nat) = fun _ => 0 := funext fun a => by fin_cases a <;> rfl

/-- A point that is not the first of its row of tiles: the accumulator block `xo` plus the lane sums of the tile `x`. -/
theorem out_B (c : Dev nD) (i : grid0.Coords) (a2 : Memref sig .tc .vmem S1x256x128 .f32) (h2 : a2.IsWhole)
    (a3 : Memref sig .tc .vmem S1x256x1 .f32) (h3 : a3.IsWhole) (hc : ¬cond0_0 i) (x : Vec F S1x256x128 .f32)
    (xo : Vec F S1x256x1 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S1x256x128) hz3,
    View.ld_unit_zero (S := S1x256x1) hz3]

/-- The first point of a row of tiles: the accumulator is reset to the zero block, read back, and the tile's lane sums
    are added to it. -/
theorem out_A (c : Dev nD) (i : grid0.Coords) (a2 : Memref sig .tc .vmem S1x256x128 .f32) (h2 : a2.IsWhole)
    (a3 : Memref sig .tc .vmem S1x256x1 .f32) (h3 : a3.IsWhole) (hc : cond0_0 i) (x : Vec F S1x256x128 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S1x256x1) hz3, View.readCov_unit_zero (S := S1x256x1) _ hz3]
  simp only [View.readAt_eq_ld, h2.read_unread, View.ld_unit_zero (S := S1x256x128) hz3]

end AnyValues

/-! ## The two payloads at an index, over the extended reals -/

/-- The reset block is zero everywhere. -/
theorem pay1_apply (j : S1x256x1.Idx) : k0_pay1 (F := Ideal) j = 0 := by
  unfold k0_pay1
  show Ideal.ofBits .f32 0x00000000#32 = 0
  exact Ideal.ofBits_zero_f32

/-- A [1,256] row vector recast as a [1,256,1] column block keeps entry `r`. -/
theorem castCol_apply (v : FVec Ideal S1x256 .f32) (r : Fin 256) :
    shapeCast S1x256x1 v shapeCasts_S1x256_S1x256x1 (ix3 (0 : Fin 1) r (0 : Fin 1)) = v (ix2 (0 : Fin 1) r) := by
  refine shapeCast_apply v shapeCasts_S1x256_S1x256x1 (ix3 (0 : Fin 1) r (0 : Fin 1)) (ix2 (0 : Fin 1) r) ?_
  rw [Shape.rowMajor_val_two, Shape.rowMajor_val_three]
  show 0 * 256 + r.val = (0 * 256 + r.val) * 1 + 0
  omega

/-- The lane reduction of a [1,256,128] tile at row `r` is the sum of that row's 128 lanes. -/
theorem laneSum_apply (x : FVec Ideal S1x256x128 .f32) (hφ : FKind.Formats .f32)
    (hacc : (0x00000000#32 : BitVec 32) = FKind.add.neutral .f32 hφ) (r : Fin 256) :
    multiReduction .add [2] S1x256 x 0x00000000#32 reduces_S1x256x128_S1x256 hφ hacc (ix2 (0 : Fin 1) r)
      = ∑ l : Fin 128, x (ix3 (0 : Fin 1) r l) := by
  refine (Ideal.multiReduction_add_single x 0x00000000#32 reduces_S1x256x128_S1x256 hφ hacc (ix2 (0 : Fin 1) r)).trans ?_
  refine Finset.sum_congr rfl fun l _ => congrArg x ?_
  funext a
  match a with
  | ⟨0, _⟩ => rfl
  | ⟨1, _⟩ => rfl
  | ⟨2, _⟩ => rfl

/-- The accumulating store at row `r`: the old entry plus the sum of the tile's 128 lanes of that row. -/
theorem pay2_apply (xo : Vec Ideal S1x256x1 .f32) (x : Vec Ideal S1x256x128 .f32) (r : Fin 256) :
    k0_pay2 xo x (ix3 (0 : Fin 1) r (0 : Fin 1))
      = xo (ix3 (0 : Fin 1) r (0 : Fin 1)) + ∑ l : Fin 128, x (ix3 (0 : Fin 1) r l) := by
  unfold k0_pay2
  simp only [shapeCast_self]
  rw [addf_apply, castCol_apply]
  exact congrArg (xo (ix3 (0 : Fin 1) r (0 : Fin 1)) + ·) (laneSum_apply x _ _ r)

/-! ## The running sum over a row of tiles -/

/-- The padded activation read anywhere along the spatial axis (zero past its end). -/
def padAt (P : S64x256x3200.Idx → EReal) (b : Fin 64) (r : Fin 256) (p : ℕ) : EReal :=
  if h : p < 3200 then P (ix3 b r (⟨p, h⟩ : Fin 3200)) else 0
/-- The sum of tile `j` of channel row `r` of batch element `b`. -/
def tsum (P : S64x256x3200.Idx → EReal) (b : Fin 64) (r : Fin 256) (j : ℕ) : EReal :=
  ∑ l : Fin 128, padAt P b r (128 * j + l.val)
/-- The accumulator after tile `n`: zero, then the tile sums added in order. -/
def chainP (P : S64x256x3200.Idx → EReal) (b : Fin 64) (r : Fin 256) : ℕ → EReal
  | 0 => 0 + tsum P b r 0
  | n + 1 => chainP P b r n + tsum P b r (n + 1)
/-- The pooled sums as an array: the accumulator after the last tile. -/
def pooledArr (P : S64x256x3200.Idx → EReal) : S64x256x1.Idx → EReal := fun i => chainP P (i 0) (i 1) 24

section Acc
variable (V : (c : Dev nD) → (b : Ref sig .tc) → Buf (Elt Ideal) ((c : Thread nD τ).loc b))

/-- The grid walks batch elements slowly and tiles fast: point `t` is tile `t % 25` of batch element `t / 25`; the
    accumulator block's index follows the batch element only. -/
theorem idx_facts0 : ∀ t : Fin cfg0.N, win0_0.index t (0 : Fin 3) = t.val / 25 ∧ win0_0.index t (1 : Fin 3) = 0
    ∧ win0_0.index t (2 : Fin 3) = t.val % 25 ∧ win0_1.index t (0 : Fin 3) = t.val / 25
    ∧ win0_1.index t (1 : Fin 3) = 0 ∧ win0_1.index t (2 : Fin 3) = 0 :=
  (by decide +kernel : ∀ t : Fin grid0.N, _)

/-- An entry of the tile staged at point `t` is an entry of the padded array: tile `t % 25` of batch element `t / 25`. -/
theorem iblk0_apply (c : Dev nD) (t : Fin cfg0.N) (r : Fin 256) (l : Fin 128) (q : Fin 64) (j : ℕ) (hq : t.val / 25 = q.val)
    (hj : t.val % 25 = j) :
    (iblk0 V c 0 t : Vec Ideal S1x256x128 .f32) (ix3 (0 : Fin 1) r l) = padAt (V c main_v1) q r (128 * j + l.val) := by
  have hl := l.isLt
  have hp : 128 * j + l.val < 3200 := by omega
  unfold padAt
  rw [dif_pos hp]
  unfold iblk0
  rw [View.read_apply]
  show V c main_v1 _ = V c main_v1 _
  refine congrArg (V c main_v1) ?_
  obtain ⟨e0, e1, e2, -⟩ := idx_facts0 t
  funext a
  apply Fin.ext
  match a with
  | ⟨0, _⟩ => show win0_0.index t (0 : Fin 3) * 1 + 1 * 0 = q.val; omega
  | ⟨1, _⟩ => show win0_0.index t (1 : Fin 3) * 256 + 1 * r.val = r.val; omega
  | ⟨2, _⟩ => show win0_0.index t (2 : Fin 3) * 128 + 1 * l.val = 128 * j + l.val; omega

theorem outsAt_congr (c : Dev nD) {u n : ℕ} (hu : u < cfg0.N) (hn : n < cfg0.N) (e : u = n) :
    outsAt0 V c u hu = outsAt0 V c n hn := by subst e; rfl

/-- After tile `j` of batch element `b` the accumulator block holds, at channel row `r`, the ordered running sum. -/
theorem outsAt_eq (c : Dev nD) (b : ℕ) (hb : b < 64) : ∀ (j : ℕ) (hj : j < 25) (h : 25 * b + j < cfg0.N) (r : Fin 256),
    outsAt0 V c (25 * b + j) h (ix3 (0 : Fin 1) r (0 : Fin 1)) = chainP (V c main_v1) ⟨b, hb⟩ r j
  | 0, _, h, r => by
    have hA := outsAt0_A V c ⟨25 * b + 0, h⟩ (by show (25 * b + 0) % 25 = 0; omega)
    rw [show outsAt0 V c (25 * b + 0) h = _ from hA, out_A, pay2_apply, pay1_apply]
    show (0 : EReal) + _ = 0 + ∑ l : Fin 128, padAt (V c main_v1) ⟨b, hb⟩ r (128 * 0 + l.val)
    exact congrArg ((0 : EReal) + ·) (Finset.sum_congr rfl fun l _ => iblk0_apply V c ⟨25 * b + 0, h⟩ r l ⟨b, hb⟩ 0
      (by show (25 * b + 0) / 25 = b; omega) (by show (25 * b + 0) % 25 = 0; omega))
  | j + 1, hj, h, r => by
    have hB : ¬(25 * b + (j + 1)) % 25 = 0 := by omega
    have hBe := outsAt0_B V c ⟨25 * b + (j + 1), h⟩ hB
    rw [show outsAt0 V c (25 * b + (j + 1)) h = _ from hBe, out_B, pay2_apply]
    show outsAt0 V c (25 * b + j) (Nat.lt_of_succ_lt h) (ix3 (0 : Fin 1) r (0 : Fin 1)) + _
      = chainP (V c main_v1) ⟨b, hb⟩ r j + ∑ l : Fin 128, padAt (V c main_v1) ⟨b, hb⟩ r (128 * (j + 1) + l.val)
    rw [outsAt_eq c b hb j (Nat.lt_of_succ_lt hj) (Nat.lt_of_succ_lt h) r]
    exact congrArg (chainP (V c main_v1) ⟨b, hb⟩ r j + ·) (Finset.sum_congr rfl fun l _ =>
      iblk0_apply V c ⟨25 * b + (j + 1), h⟩ r l ⟨b, hb⟩ (j + 1) (by show (25 * b + (j + 1)) / 25 = b; omega)
        (by show (25 * b + (j + 1)) % 25 = j + 1; omega))

/-! ## The pooled array after the region -/

theorem mem_blk1 (t : Fin cfg0.N) (i : S64x256x1.Idx) :
    i ∈ ((cfg0.win 1).blk t).view.set ↔ ∀ a : Fin 3, win0_1.index t a * S1x256x1.size a ≤ (i a).val
      ∧ (i a).val < win0_1.index t a * S1x256x1.size a + S1x256x1.size a := by
  show i ∈ ((View.whole main_v2).slice (win0_1.rect t)).set ↔ _
  rw [View.set_slice_whole, Rect.mem_set_unit]
  exact Iff.rfl

/-- The accumulator block is written back after the last tile of each batch element, holding that element's pooled sums. -/
theorem flushed_eq (c : Dev nD) (t : Fin cfg0.N) (hf : (cfg0.win 1).flush t = true) :
    (dat0 V c).flushed 1 t = ((cfg0.win 1).blk t).view.read (Elt Ideal) (pooledArr (V c main_v1)) := by
  have hN : cfg0.N = 1600 := N_0
  have h24 : t.val % 25 = 24 := (flush0_1 t).mp hf
  have htl : t.val < 1600 := lt_of_lt_of_eq t.isLt hN
  show (cfg0.win 1).cut (grid0.coords t) ((dat0 V c).after 1 t) = _
  rw [after0_1]
  funext y
  obtain ⟨p, q, s, rfl⟩ : ∃ (p : Fin 1) (q : Fin 256) (s : Fin 1), y = ix3 p q s := ⟨y 0, y 1, y 2, eq_ix3 y⟩
  obtain rfl : p = 0 := Subsingleton.elim _ _
  obtain rfl : s = 0 := Subsingleton.elim _ _
  rw [View.read_apply]
  have hb : t.val / 25 < 64 := by omega
  have ht : t.val = 25 * (t.val / 25) + 24 := by omega
  have hlt : 25 * (t.val / 25) + 24 < cfg0.N := lt_of_lt_of_eq (by omega : 25 * (t.val / 25) + 24 < 1600) hN.symm
  show outsAt0 V c t.val t.isLt (ix3 (0 : Fin 1) q (0 : Fin 1)) = pooledArr (V c main_v1) _
  rw [outsAt_congr V c t.isLt hlt ht, outsAt_eq V c (t.val / 25) hb 24 (by omega) hlt q]
  unfold pooledArr
  obtain ⟨-, -, -, e3, e4, e5⟩ := idx_facts0 t
  have i0 : ((((cfg0.win 1).blk t).view.emb (ix3 (0 : Fin 1) q (0 : Fin 1))) 0 : Fin 64) = ⟨t.val / 25, hb⟩ :=
    Fin.ext (by show win0_1.index t (0 : Fin 3) * 1 + 1 * 0 = t.val / 25; omega)
  have i1 : ((((cfg0.win 1).blk t).view.emb (ix3 (0 : Fin 1) q (0 : Fin 1))) 1 : Fin 256) = q :=
    Fin.ext (by show win0_1.index t (1 : Fin 3) * 256 + 1 * q.val = q.val; omega)
  rw [i0, i1]
  rfl

theorem cover1 (i : S64x256x1.Idx) :
    ∃ t : Fin cfg0.N, (cfg0.win 1).flush t = true ∧ i ∈ ((cfg0.win 1).blk t).view.set := by
  have h0 : (i 0).val < 64 := (i 0).isLt
  have h1 : (i 1).val < 256 := (i 1).isLt
  have h2 : (i 2).val < 1 := (i 2).isLt
  have hN : cfg0.N = 1600 := N_0
  have hlt : 25 * (i 0).val + 24 < cfg0.N := by rw [hN]; omega
  refine ⟨⟨25 * (i 0).val + 24, hlt⟩, (flush0_1 _).mpr (by show (25 * (i 0).val + 24) % 25 = 24; omega), ?_⟩
  rw [mem_blk1]
  obtain ⟨-, -, -, e3, e4, e5⟩ := idx_facts0 ⟨25 * (i 0).val + 24, hlt⟩
  have e3' : win0_1.index ⟨25 * (i 0).val + 24, hlt⟩ (0 : Fin 3) = (i 0).val := by
    rw [e3]; show (25 * (i 0).val + 24) / 25 = (i 0).val; omega
  intro a
  match a with
  | ⟨0, _⟩ => show win0_1.index ⟨25 * (i 0).val + 24, hlt⟩ (0 : Fin 3) * 1 ≤ (i 0).val ∧ (i 0).val < win0_1.index ⟨25 * (i 0).val + 24, hlt⟩ (0 : Fin 3) * 1 + 1; omega
  | ⟨1, _⟩ => show win0_1.index ⟨25 * (i 0).val + 24, hlt⟩ (1 : Fin 3) * 256 ≤ (i 1).val ∧ (i 1).val < win0_1.index ⟨25 * (i 0).val + 24, hlt⟩ (1 : Fin 3) * 256 + 256; omega
  | ⟨2, _⟩ => show win0_1.index ⟨25 * (i 0).val + 24, hlt⟩ (2 : Fin 3) * 1 ≤ (i 2).val ∧ (i 2).val < win0_1.index ⟨25 * (i 0).val + 24, hlt⟩ (2 : Fin 3) * 1 + 1; omega

/-- The pooled-sum array after the first region. -/
theorem final_pool (c : Dev nD) : (dat0 V c).arrAt 1 cfg0.N = pooledArr (V c main_v1) :=
  (dat0 V c).arrAt_eq_of_cover 1 (pooledArr (V c main_v1)) (flushed_eq V c) cover1

end Acc

end Cert.ReferenceIdeal.RValue

end
-- ==== Proof.RefScale.lean ====
/-
  The second region of the reference, read as values: the scaling kernel.

  Its grid has the same 64 × 25 points; point `t` stages tile `t % 25` of batch element `t / 25` of the padded activation,
  that batch element's [1,256,1] block of gates, and the matching tile of the result. The body multiplies every entry of
  the tile by the gate of its channel row. Each of the 1600 result tiles is written back once and they tile the
  [64,256,3200] result, which therefore ends as the padded activation times the gate of (batch element, channel).
-/
import proofs.«127554_g2000504790337708_pallasbulk_234_2_alg».proof.Proof.Gen.ReferenceIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.ReferenceIdeal.RValue

open Cert.ReferenceIdeal Cert.ReferenceIdeal.Gen ValueIdx

theorem hz3' : (![0, 0, 0] : Fin 3 → Nat) = fun _ => 0 := funext fun a => by fin_cases a <;> rfl

/-- The body's one store at (channel row `r`, lane `l`): the tile entry times the row's gate. -/
theorem pay_scale_apply (x : Vec Ideal S1x256x128 .f32) (g : Vec Ideal S1x256x1 .f32) (r : Fin 256) (l : Fin 128) :
    k1_pay1 x g (ix3 (0 : Fin 1) r l) = x (ix3 (0 : Fin 1) r l) * g (ix3 (0 : Fin 1) r (0 : Fin 1)) := by
  unfold k1_pay1
  simp only [shapeCast_self]
  rw [mulf_apply]
  refine congrArg (x (ix3 (0 : Fin 1) r l) * ·) ?_
  exact broadcastTo_apply g broadcasts_S1x256x1_S1x256x128 (ix3 (0 : Fin 1) r l) (ix3 (0 : Fin 1) r (0 : Fin 1))
    (fun a => by
      match a with
      | ⟨0, _⟩ => rfl
      | ⟨1, _⟩ => rfl
      | ⟨2, _⟩ => rfl)

/-- The padded activation scaled, entry by entry, by the gate of its batch element and channel. -/
def scaledArr (g : S64x256x1.Idx → EReal) (P : S64x256x3200.Idx → EReal) : S64x256x3200.Idx → EReal :=
  fun i => P i * g (ix3 (i 0) (i 1) (0 : Fin 1))

section Scale
variable (V : (c : Dev nD) → (b : Ref sig .tc) → Buf (Elt Ideal) ((c : Thread nD τ).loc b))

/-- Point `t` is tile `t % 25` of batch element `t / 25` for the activation and the result; the gate block follows the
    batch element only. -/
theorem idx_facts1 : ∀ t : Fin cfg1.N, win1_0.index t (0 : Fin 3) = t.val / 25 ∧ win1_0.index t (1 : Fin 3) = 0
    ∧ win1_0.index t (2 : Fin 3) = 0 ∧ win1_1.index t (0 : Fin 3) = t.val / 25 ∧ win1_1.index t (1 : Fin 3) = 0
    ∧ win1_1.index t (2 : Fin 3) = t.val % 25 ∧ win1_2.index t (0 : Fin 3) = t.val / 25
    ∧ win1_2.index t (1 : Fin 3) = 0 ∧ win1_2.index t (2 : Fin 3) = t.val % 25 :=
  (by decide +kernel : ∀ t : Fin grid1.N, _)

/-- What point `t` writes back is its block of the scaled array. -/
theorem flushed_scale (c : Dev nD) (t : Fin cfg1.N) :
    (dat1 V c).flushed 2 t = ((cfg1.win 2).blk t).view.read (Elt Ideal) (scaledArr (V c main_v28) (V c main_v1)) := by
  show (cfg1.win 2).cut (grid1.coords t) ((dat1 V c).after 2 t) = _
  rw [after1_2]
  unfold out1_2
  rw [View.canon_unit_zero hz3']
  simp only [View.ld_unit_zero (S := S1x256x128) hz3', View.ld_unit_zero (S := S1x256x1) hz3']
  funext y
  obtain ⟨p, q, s, rfl⟩ : ∃ (p : Fin 1) (q : Fin 256) (s : Fin 128), y = ix3 p q s := ⟨y 0, y 1, y 2, eq_ix3 y⟩
  obtain rfl : p = 0 := Subsingleton.elim _ _
  rw [View.read_apply]
  show k1_pay1 (iblk1 V c 1 t) (iblk1 V c 0 t) (ix3 (0 : Fin 1) q s) = _
  rw [pay_scale_apply]
  unfold scaledArr iblk1
  rw [View.read_apply, View.read_apply]
  obtain ⟨e0, e1, e2, e3, e4, e5, e6, e7, e8⟩ := idx_facts1 t
  have h1 : ((cfg1.win 1).blk t).view.emb (ix3 (0 : Fin 1) q s) = ((cfg1.win 2).blk t).view.emb (ix3 (0 : Fin 1) q s) := by
    funext a
    apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 256 + 1 * q.val = win1_2.index t (1 : Fin 3) * 256 + 1 * q.val; omega
    | ⟨2, _⟩ => show win1_1.index t (2 : Fin 3) * 128 + 1 * s.val = win1_2.index t (2 : Fin 3) * 128 + 1 * s.val; omega
  have h0 : ((cfg1.win 0).blk t).view.emb (ix3 (0 : Fin 1) q (0 : Fin 1))
      = ix3 ((((cfg1.win 2).blk t).view.emb (ix3 (0 : Fin 1) q s)) 0 : Fin 64)
          ((((cfg1.win 2).blk t).view.emb (ix3 (0 : Fin 1) q s)) 1 : Fin 256) (0 : Fin 1) := by
    funext a
    apply Fin.ext
    match a with
    | ⟨0, _⟩ => show win1_0.index t (0 : Fin 3) * 1 + 1 * 0 = win1_2.index t (0 : Fin 3) * 1 + 1 * 0; omega
    | ⟨1, _⟩ => show win1_0.index t (1 : Fin 3) * 256 + 1 * q.val = win1_2.index t (1 : Fin 3) * 256 + 1 * q.val; omega
    | ⟨2, _⟩ => show win1_0.index t (2 : Fin 3) * 1 + 1 * 0 = 0; omega
  rw [h1, h0]
  rfl

theorem mem_blk2 (t : Fin cfg1.N) (i : S64x256x3200.Idx) :
    i ∈ ((cfg1.win 2).blk t).view.set ↔ ∀ a : Fin 3, win1_2.index t a * S1x256x128.size a ≤ (i a).val
      ∧ (i a).val < win1_2.index t a * S1x256x128.size a + S1x256x128.size a := by
  show i ∈ ((View.whole main_v29).slice (win1_2.rect t)).set ↔ _
  rw [View.set_slice_whole, Rect.mem_set_unit]
  exact Iff.rfl

theorem cover2 (i : S64x256x3200.Idx) :
    ∃ t : Fin cfg1.N, (cfg1.win 2).flush t = true ∧ i ∈ ((cfg1.win 2).blk t).view.set := by
  have h0 : (i 0).val < 64 := (i 0).isLt
  have h1 : (i 1).val < 256 := (i 1).isLt
  have h2 : (i 2).val < 3200 := (i 2).isLt
  have hN : cfg1.N = 1600 := N_1
  have hlt : 25 * (i 0).val + (i 2).val / 128 < cfg1.N := by rw [hN]; omega
  refine ⟨⟨25 * (i 0).val + (i 2).val / 128, hlt⟩, flush1_2 _, ?_⟩
  rw [mem_blk2]
  obtain ⟨-, -, -, -, -, -, e6, e7, e8⟩ := idx_facts1 ⟨25 * (i 0).val + (i 2).val / 128, hlt⟩
  have e6' : win1_2.index ⟨25 * (i 0).val + (i 2).val / 128, hlt⟩ (0 : Fin 3) = (i 0).val := by
    rw [e6]; show (25 * (i 0).val + (i 2).val / 128) / 25 = (i 0).val; omega
  have e8' : win1_2.index ⟨25 * (i 0).val + (i 2).val / 128, hlt⟩ (2 : Fin 3) = (i 2).val / 128 := by
    rw [e8]; show (25 * (i 0).val + (i 2).val / 128) % 25 = (i 2).val / 128; omega
  intro a
  match a with
  | ⟨0, _⟩ => show win1_2.index ⟨25 * (i 0).val + (i 2).val / 128, hlt⟩ (0 : Fin 3) * 1 ≤ (i 0).val ∧ (i 0).val < win1_2.index ⟨25 * (i 0).val + (i 2).val / 128, hlt⟩ (0 : Fin 3) * 1 + 1; omega
  | ⟨1, _⟩ => show win1_2.index ⟨25 * (i 0).val + (i 2).val / 128, hlt⟩ (1 : Fin 3) * 256 ≤ (i 1).val ∧ (i 1).val < win1_2.index ⟨25 * (i 0).val + (i 2).val / 128, hlt⟩ (1 : Fin 3) * 256 + 256; omega
  | ⟨2, _⟩ => show win1_2.index ⟨25 * (i 0).val + (i 2).val / 128, hlt⟩ (2 : Fin 3) * 128 ≤ (i 2).val ∧ (i 2).val < win1_2.index ⟨25 * (i 0).val + (i 2).val / 128, hlt⟩ (2 : Fin 3) * 128 + 128; omega

/-- The scaled array after the second region. -/
theorem final_scale (c : Dev nD) : (dat1 V c).arrAt 2 cfg1.N = scaledArr (V c main_v28) (V c main_v1) :=
  (dat1 V c).arrAt_eq_of_cover 2 (scaledArr (V c main_v28) (V c main_v1)) (fun t _ => flushed_scale V c t) cover2

end Scale

end Cert.ReferenceIdeal.RValue

end
-- ==== Proof.RefHost.lean ====
/-
  The reference's host operations, read as values, and the reference's value as the specification's second arrangement.

  Before the first region the host flattens the activation's two spatial axes and pads the flattened axis with 64 zeros.
  Between the regions it folds batch-norm and the mean factor into the weight and the bias, multiplies the pooled sums
  by the transposed folded weight (a sum over input channels), adds the bias and applies the logistic function spelled
  out as `1 / (1 + exp(−z))`. After the second region it cuts the padding off and restores the two spatial axes. Read at
  an index each of these is the specification's `xpad`, `wt`, `bias`, `gateR` and `outR`.
-/
import proofs.«127554_g2000504790337708_pallasbulk_234_2_alg».proof.Proof.RefPool
import proofs.«127554_g2000504790337708_pallasbulk_234_2_alg».proof.Proof.RefScale
import proofs.«127554_g2000504790337708_pallasbulk_234_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.RValue

open Cert.ReferenceIdeal Cert.ReferenceIdeal.Gen ValueIdx Idealize.ShloMosaic.StableHlo

/-! ## The host operations' composed terms -/

/-- The activation flattened to [64,256,3136] and padded with zeros to [64,256,3200]. -/
def padOf (a0 : FVec Ideal S64x256x56x56 .f32) : FVec Ideal S64x256x3200 .f32 :=
  pad S64x256x3200 ![0, 0, 0] ![0, 0, 64] ![0, 0, 0] (shapeCast S64x256x3136 a0 shapeCasts_S64x256x56x56_S64x256x3136)
    (sitofp (F := Ideal) .f32 (constantI S_ 32 0#32)) pads_S64x256x3136_S64x256x3200_000_000_0640 h_S_

/-- The batch-norm scale vector `γ · rsqrt(var + ε)`. -/
def scaleV (a3 a6 : FVec Ideal S256 .f32) : FVec Ideal S256 .f32 :=
  mulf a3 (Host.rsqrt (addf a6 (broadcastInDim S256 ![] bcast_S_S256 (constant (F := Ideal) S_ .f32 0x3727C5AC#32))))

/-- The weight times the batch-norm scale of its output channel, as (output channel, input channel). -/
def w0 (a1 : FVec Ideal S256x256x1x1 .f32) (a3 a6 : FVec Ideal S256 .f32) : FVec Ideal S256x256 .f32 :=
  mulf (shapeCast S256x256 a1 shapeCasts_S256x256x1x1_S256x256)
    (broadcastInDim S256x256 ![0, 1] bcast_S256x1_S256x256_0_1 (broadcastInDim S256x1 ![0] bcast_S256_S256x1_0 (scaleV a3 a6)))

/-- The folded weight, transposed to (input channel, output channel) and times the mean factor. -/
def wV (a1 : FVec Ideal S256x256x1x1 .f32) (a3 a6 : FVec Ideal S256 .f32) : FVec Ideal S256x256 .f32 :=
  mulf (transpose S256x256 [1, 0] (w0 a1 a3 a6) transposes_S256x256_S256x256_1_0)
    (broadcastInDim S256x256 ![] bcast_S_S256x256 (constant (F := Ideal) S_ .f32 0x39A72F05#32))

/-- The folded bias vector. -/
def bV (a2 a3 a4 a5 a6 : FVec Ideal S256 .f32) : FVec Ideal S256 .f32 :=
  addf (mulf (subf a2 a5) (scaleV a3 a6)) a4

/-- The gates from the pooled sums: the spelled-out logistic function of the matrix product plus bias. -/
def gateV (p : FVec Ideal S64x256x1 .f32) (a1 : FVec Ideal S256x256x1x1 .f32) (a2 a3 a4 a5 a6 : FVec Ideal S256 .f32) :
    FVec Ideal S64x256x1 .f32 :=
  shapeCast S64x256x1
    (Host.divf (broadcastInDim S64x256 ![] bcast_S_S64x256 (constant (F := Ideal) S_ .f32 0x3F800000#32))
      (addf (broadcastInDim S64x256 ![] bcast_S_S64x256 (constant (F := Ideal) S_ .f32 0x3F800000#32))
        (Host.exp (Host.negf
          (addf (Host.dotGeneral dot_S64x256_S256x256_S64x256_1_0_0_1_n_n none (shapeCast S64x256 p shapeCasts_S64x256x1_S64x256) (wV a1 a3 a6))
            (broadcastInDim S64x256 ![0, 1] bcast_S1x256_S64x256_0_1 (broadcastInDim S1x256 ![1] bcast_S256_S1x256_1 (bV a2 a3 a4 a5 a6))))))))
    shapeCasts_S64x256_S64x256x1

/-- The result cut back to 3136 positions and unflattened. -/
def tailOf (s : FVec Ideal S64x256x3200 .f32) : FVec Ideal S64x256x56x56 .f32 :=
  shapeCast S64x256x56x56 (extractStridedSlice S64x256x3136 ![0, 0, 0] s slices_S64x256x3200_S64x256x3136_0_0_0)
    shapeCasts_S64x256x3136_S64x256x56x56

section Host
variable (m : (ℓ : Loc nD τ sig) → Buf (Elt Ideal) ℓ) (ρ : Dev nD → PrngReg)

theorem W2_v1 (c : Dev nD) : (W2 m ρ c (Proc.devRef .tc main_v1)) = padOf (m ((c : Thread nD τ).loc main_arg0)) := by
  dsimp only [W2, W1, W0, hostOps0_1, hostOps0]
  after_results
  rfl

set_option maxHeartbeats 2000000 in
theorem after1_v28 (W : Valuation τ sig (Elt Ideal)) :
    StableHlo.after hostOps1 W (Proc.devRef .tc main_v28)
      = gateV (W (Proc.devRef .tc main_v2)) (W (Proc.devRef .tc main_arg1)) (W (Proc.devRef .tc main_arg2))
          (W (Proc.devRef .tc main_arg3)) (W (Proc.devRef .tc main_arg4)) (W (Proc.devRef .tc main_arg5))
          (W (Proc.devRef .tc main_arg6)) := by
  dsimp only [hostOps1]
  after_results_simp
  rfl

theorem after1_v1 (W : Valuation τ sig (Elt Ideal)) :
    StableHlo.after hostOps1 W (Proc.devRef .tc main_v1) = W (Proc.devRef .tc main_v1) := by
  dsimp only [hostOps1]
  after_results_simp

theorem after2_v31 (W : Valuation τ sig (Elt Ideal)) :
    StableHlo.after hostOps2 W (Proc.devRef .tc main_v31) = tailOf (W (Proc.devRef .tc main_v29)) := by
  dsimp only [hostOps2]
  after_results
  rfl

end Host

/-! ## The composed terms read at an index -/

open Cert.MixerSpec in
theorem scaleV_apply (a3 a6 : FVec Ideal S256 .f32) (o : Fin 256) :
    scaleV a3 a6 (ix1 o) = scale (vOf a3) (vOf a6) o := rfl

open Cert.MixerSpec in
/-- The scaled weight at (output channel, input channel). -/
theorem w0_apply (a1 : FVec Ideal S256x256x1x1 .f32) (a3 a6 : FVec Ideal S256 .f32) (o i : Fin 256) :
    w0 a1 a3 a6 (ix2 o i) = wOf a1 o i * scale (vOf a3) (vOf a6) o := by
  have e1 : shapeCast S256x256 a1 shapeCasts_S256x256x1x1_S256x256 (ix2 o i) = a1 (ix4 o i (0 : Fin 1) (0 : Fin 1)) :=
    shapeCast_apply a1 _ (ix2 o i) (ix4 o i (0 : Fin 1) (0 : Fin 1)) (by
      rw [Shape.rowMajor_val_four, Shape.rowMajor_val_two]
      show ((o.val * 256 + i.val) * 1 + 0) * 1 + 0 = o.val * 256 + i.val
      omega)
  have e2 : broadcastInDim S256x256 ![0, 1] bcast_S256x1_S256x256_0_1
        (broadcastInDim S256x1 ![0] bcast_S256_S256x1_0 (scaleV a3 a6)) (ix2 o i) = scaleV a3 a6 (ix1 o) :=
    (broadcastInDim_apply _ _ _ (ix2 o i) (ix2 o (0 : Fin 1)) (fun a => match a with | ⟨0, _⟩ => rfl | ⟨1, _⟩ => rfl)).trans
      (broadcastInDim_apply _ _ _ (ix2 o (0 : Fin 1)) (ix1 o) (fun a => match a with | ⟨0, _⟩ => rfl))
  unfold w0 wOf
  show shapeCast S256x256 a1 shapeCasts_S256x256x1x1_S256x256 (ix2 o i)
      * broadcastInDim S256x256 ![0, 1] bcast_S256x1_S256x256_0_1 (broadcastInDim S256x1 ![0] bcast_S256_S256x1_0 (scaleV a3 a6)) (ix2 o i) = _
  rw [e1, e2, scaleV_apply]

open Cert.MixerSpec in
/-- The transposed folded weight at (input channel, output channel) is the folded weight at (output, input). -/
theorem wV_apply (a1 : FVec Ideal S256x256x1x1 .f32) (a3 a6 : FVec Ideal S256 .f32) (i o : Fin 256) :
    wV a1 a3 a6 (ix2 i o) = wt (wOf a1) (vOf a3) (vOf a6) o i := by
  unfold wV wt
  show transpose S256x256 [1, 0] (w0 a1 a3 a6) transposes_S256x256_S256x256_1_0 (ix2 i o) * Ideal.ofBits .f32 0x39A72F05#32 = _
  rw [transpose_apply [1, 0] (w0 a1 a3 a6) transposes_S256x256_S256x256_1_0 (ix2 i o) (ix2 o i)
    (fun b => match b with | ⟨0, _⟩ => rfl | ⟨1, _⟩ => rfl), w0_apply]

open Cert.MixerSpec in
theorem bV_apply (a2 a3 a4 a5 a6 : FVec Ideal S256 .f32) (o : Fin 256) :
    bV a2 a3 a4 a5 a6 (ix1 o) = bias (vOf a2) (vOf a3) (vOf a4) (vOf a5) (vOf a6) o := rfl

/-- The dimension numbers of the reference's product: pooled rows against the transposed weight's columns. -/
abbrev DG : DotDims S64x256 S256x256 S64x256 := dot_S64x256_S256x256_S64x256_1_0_0_1_n_n

/-- The product at (batch element, output channel): the sum over input channels. -/
theorem dot_apply (q : FVec Ideal S64x256 .f32) (W : FVec Ideal S256x256 .f32) (b : Fin 64) (o : Fin 256) :
    Host.dotGeneral DG none q W (ix2 b o) = ∑ i : Fin 256, q (ix2 b i) * W (ix2 i o) := by
  simp only [Host.dotGeneral]
  rw [Ideal.dotGeneral_apply, ← Equiv.sum_comp (contrEquiv1 DG 256 rfl rfl).symm]
  refine Finset.sum_congr rfl fun c _ => ?_
  have c2 := contrEquiv1_symm_val DG 256 rfl rfl c
  have l2 : DG.lhsIdx (ix2 b o) ((contrEquiv1 DG 256 rfl rfl).symm c) = ix2 b c := by
    funext ax; apply Fin.ext
    match ax with
    | ⟨0, _⟩ => simp [DotDims.lhsIdx, DG, dot_S64x256_S256x256_S64x256_1_0_0_1_n_n]; rfl
    | ⟨1, _⟩ => simp [DotDims.lhsIdx, DG, dot_S64x256_S256x256_S64x256_1_0_0_1_n_n]; exact c2
  have r2 : DG.rhsIdx (ix2 b o) ((contrEquiv1 DG 256 rfl rfl).symm c) = ix2 c o := by
    funext ax; apply Fin.ext
    match ax with
    | ⟨0, _⟩ => simp [DotDims.rhsIdx, DG, dot_S64x256_S256x256_S64x256_1_0_0_1_n_n]; exact c2
    | ⟨1, _⟩ => simp [DotDims.rhsIdx, DG, dot_S64x256_S256x256_S64x256_1_0_0_1_n_n]; rfl
  rw [l2, r2]

open Cert.MixerSpec in
/-- The gate of (batch element, output channel): the spelled-out logistic function of the pooled sums against the folded
    weight's row, plus the folded bias. -/
theorem gateV_apply (p : FVec Ideal S64x256x1 .f32) (a1 : FVec Ideal S256x256x1x1 .f32) (a2 a3 a4 a5 a6 : FVec Ideal S256 .f32)
    (b : Fin 64) (o : Fin 256) :
    gateV p a1 a2 a3 a4 a5 a6 (ix3 b o (0 : Fin 1))
      = Ideal.div one (one + Ideal.exp (-((∑ i : Fin 256, p (ix3 b i (0 : Fin 1)) * wt (wOf a1) (vOf a3) (vOf a6) o i)
          + bias (vOf a2) (vOf a3) (vOf a4) (vOf a5) (vOf a6) o))) := by
  unfold gateV
  refine (shapeCast_apply _ shapeCasts_S64x256_S64x256x1 (ix3 b o (0 : Fin 1)) (ix2 b o) ?_).trans ?_
  · rw [Shape.rowMajor_val_two, Shape.rowMajor_val_three]
    show b.val * 256 + o.val = (b.val * 256 + o.val) * 1 + 0
    omega
  · show Ideal.div one (one + Ideal.exp (-(Host.dotGeneral DG none (shapeCast S64x256 p shapeCasts_S64x256x1_S64x256) (wV a1 a3 a6) (ix2 b o)
        + broadcastInDim S64x256 ![0, 1] bcast_S1x256_S64x256_0_1 (broadcastInDim S1x256 ![1] bcast_S256_S1x256_1 (bV a2 a3 a4 a5 a6)) (ix2 b o)))) = _
    have eb : broadcastInDim S64x256 ![0, 1] bcast_S1x256_S64x256_0_1 (broadcastInDim S1x256 ![1] bcast_S256_S1x256_1 (bV a2 a3 a4 a5 a6)) (ix2 b o)
        = bV a2 a3 a4 a5 a6 (ix1 o) :=
      (broadcastInDim_apply _ _ _ (ix2 b o) (ix2 (0 : Fin 1) o) (fun a => match a with | ⟨0, _⟩ => rfl | ⟨1, _⟩ => rfl)).trans
        (broadcastInDim_apply _ _ _ (ix2 (0 : Fin 1) o) (ix1 o) (fun a => match a with | ⟨0, _⟩ => rfl))
    rw [dot_apply, eb, bV_apply]
    refine congrArg (fun s => Ideal.div one (one + Ideal.exp (-(s + bias (vOf a2) (vOf a3) (vOf a4) (vOf a5) (vOf a6) o)))) ?_
    refine Finset.sum_congr rfl fun i _ => ?_
    rw [wV_apply]
    refine congrArg (· * wt (wOf a1) (vOf a3) (vOf a6) o i) ?_
    refine shapeCast_apply p shapeCasts_S64x256x1_S64x256 (ix2 b i) (ix3 b i (0 : Fin 1)) ?_
    rw [Shape.rowMajor_val_two, Shape.rowMajor_val_three]
    show (b.val * 256 + i.val) * 1 + 0 = b.val * 256 + i.val
    omega

/-! ## The padded activation against the specification's padded row -/

open Cert.MixerSpec in
/-- Inside the activation the padded array reads the activation. -/
theorem padOf_inside (a0 : FVec Ideal S64x256x56x56 .f32) (b : Fin 64) (r : Fin 256) (p : ℕ) (h1 : p < 3136) (h2 : p < 3200) :
    padOf a0 (ix3 b r (⟨p, h2⟩ : Fin 3200)) = xOf a0 b r ⟨p, h1⟩ := by
  unfold padOf
  refine (pad_apply_of_inside _ _ _ _ _ _ _ (ix3 b r (⟨p, h2⟩ : Fin 3200)) (ix3 b r (⟨p, h1⟩ : Fin 3136)) (fun a => ?_)).trans ?_
  · match a with
    | ⟨0, _⟩ => show b.val = 0 + b.val * (0 + 1); omega
    | ⟨1, _⟩ => show r.val = 0 + r.val * (0 + 1); omega
    | ⟨2, _⟩ => show p = 0 + p * (0 + 1); omega
  · unfold xOf
    refine shapeCast_apply a0 _ (ix3 b r (⟨p, h1⟩ : Fin 3136)) _ ?_
    rw [Shape.rowMajor_val_four, Shape.rowMajor_val_three]
    show ((b.val * 256 + r.val) * 56 + p / 56) * 56 + p % 56 = (b.val * 256 + r.val) * 3136 + p
    omega

/-- In the padding the padded array reads zero. -/
theorem padOf_outside (a0 : FVec Ideal S64x256x56x56 .f32) (b : Fin 64) (r : Fin 256) (p : ℕ) (h1 : ¬p < 3136) (h2 : p < 3200) :
    padOf a0 (ix3 b r (⟨p, h2⟩ : Fin 3200)) = 0 := by
  unfold padOf
  refine (pad_apply_of_not_inside _ _ _ _ _ _ _ (ix3 b r (⟨p, h2⟩ : Fin 3200)) (2 : Fin 3) ?_).trans ?_
  · rintro ⟨-, -, h⟩
    have h' : (p - 0) / (0 + 1) < 3136 := h
    omega
  · show (((0#32 : BitVec 32).toInt : ℝ) : EReal) = 0
    simp

open Cert.MixerSpec in
theorem padAt_padOf (a0 : FVec Ideal S64x256x56x56 .f32) (b : Fin 64) (r : Fin 256) (p : ℕ) :
    padAt (padOf a0) b r p = xpad (xOf a0) b r p := by
  unfold padAt xpad
  by_cases h1 : p < 3136
  · have h2 : p < 3200 := by omega
    rw [dif_pos h2, dif_pos h1, padOf_inside a0 b r p h1 h2]
  · by_cases h2 : p < 3200
    · rw [dif_pos h2, dif_neg h1, padOf_outside a0 b r p h1 h2]
    · rw [dif_neg h2, dif_neg h1]

open Cert.MixerSpec in
theorem tsum_padOf (a0 : FVec Ideal S64x256x56x56 .f32) (b : Fin 64) (r : Fin 256) (j : ℕ) :
    tsum (padOf a0) b r j = tileSum (xOf a0) b r j :=
  Finset.sum_congr rfl fun l _ => padAt_padOf a0 b r _

open Cert.MixerSpec in
theorem chainP_padOf (a0 : FVec Ideal S64x256x56x56 .f32) (b : Fin 64) (r : Fin 256) :
    ∀ n : ℕ, chainP (padOf a0) b r n = chain (xOf a0) b r n
  | 0 => by unfold chainP chain; rw [tsum_padOf]
  | n + 1 => by unfold chainP chain; rw [chainP_padOf a0 b r n, tsum_padOf]

open Cert.MixerSpec in
/-- The gates computed from the pooled sums of the padded activation are the specification's second-arrangement gates. -/
theorem gate_eq (a0 : FVec Ideal S64x256x56x56 .f32) (a1 : FVec Ideal S256x256x1x1 .f32) (a2 a3 a4 a5 a6 : FVec Ideal S256 .f32)
    (b : Fin 64) (o : Fin 256) :
    gateV (pooledArr (padOf a0)) a1 a2 a3 a4 a5 a6 (ix3 b o (0 : Fin 1))
      = gateR (xOf a0) (wOf a1) (vOf a2) (vOf a3) (vOf a4) (vOf a5) (vOf a6) b o := by
  rw [gateV_apply]
  unfold gateR pooledR
  refine congrArg (fun s => Ideal.div one (one + Ideal.exp (-(s + bias (vOf a2) (vOf a3) (vOf a4) (vOf a5) (vOf a6) o)))) ?_
  refine Finset.sum_congr rfl fun i _ => ?_
  refine congrArg (· * wt (wOf a1) (vOf a3) (vOf a6) o i) ?_
  exact chainP_padOf a0 b i 24

open Cert.MixerSpec in
/-- THE REFERENCE'S VALUE: the scaled padded activation, cut back and unflattened, is the specification's second arrangement. -/
theorem result_eq (a0 : FVec Ideal S64x256x56x56 .f32) (a1 : FVec Ideal S256x256x1x1 .f32) (a2 a3 a4 a5 a6 : FVec Ideal S256 .f32) :
    tailOf (scaledArr (gateV (pooledArr (padOf a0)) a1 a2 a3 a4 a5 a6) (padOf a0)) = resultR a0 a1 a2 a3 a4 a5 a6 := by
  funext j
  obtain ⟨b, c, h, v, rfl⟩ : ∃ (b : Fin 64) (c : Fin 256) (h : Fin 56) (v : Fin 56), j = ix4 b c h v :=
    ⟨j 0, j 1, j 2, j 3, eq_ix4 j⟩
  have hh := h.isLt
  have hv := v.isLt
  have h1 : 56 * h.val + v.val < 3136 := by omega
  have h2 : 56 * h.val + v.val < 3200 := by omega
  unfold tailOf
  refine (shapeCast_apply _ shapeCasts_S64x256x3136_S64x256x56x56 (ix4 b c h v) (ix3 b c (⟨56 * h.val + v.val, h1⟩ : Fin 3136)) ?_).trans ?_
  · rw [Shape.rowMajor_val_four, Shape.rowMajor_val_three]
    show (b.val * 256 + c.val) * 3136 + (56 * h.val + v.val) = ((b.val * 256 + c.val) * 56 + h.val) * 56 + v.val
    omega
  refine (extractStridedSlice_apply _ _ slices_S64x256x3200_S64x256x3136_0_0_0 (ix3 b c (⟨56 * h.val + v.val, h1⟩ : Fin 3136))
    (ix3 b c (⟨56 * h.val + v.val, h2⟩ : Fin 3200)) (fun a => ?_)).trans ?_
  · match a with
    | ⟨0, _⟩ => show b.val = 0 + b.val; omega
    | ⟨1, _⟩ => show c.val = 0 + c.val; omega
    | ⟨2, _⟩ => show 56 * h.val + v.val = 0 + (56 * h.val + v.val); omega
  show padOf a0 (ix3 b c (⟨56 * h.val + v.val, h2⟩ : Fin 3200)) * gateV (pooledArr (padOf a0)) a1 a2 a3 a4 a5 a6 (ix3 b c (0 : Fin 1))
    = outR (xOf a0) (wOf a1) (vOf a2) (vOf a3) (vOf a4) (vOf a5) (vOf a6) b c (flat h v)
  rw [padOf_inside a0 b c _ h1 h2, gate_eq]
  rfl

end Cert.ReferenceIdeal.RValue

end
-- ==== Proof.RefRun.lean ====
/-
  The reference's run, read as a value.

  The reference's program is six segments: two host stretches (flatten, pad), the pooling region, the host stretch that
  computes the gates, the scaling region, and the host tail (cut, unflatten). Its buffer contents after each segment
  are a fold from the launch memory. Followed through the fold, the result buffer ends at the tail of the scaled padded
  activation, whose gates come from the pooled sums of the padded activation — the specification's second arrangement.
-/
import proofs.«127554_g2000504790337708_pallasbulk_234_2_alg».proof.Proof.RefHost

noncomputable section

open Idealize.ShloMosaic Idealize.ShloMosaic.TcCoe Idealize.SL.Sem
open Idealize.ShloMosaic.Pipeline (Dat)

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

namespace Cert.ReferenceIdeal.RValue

open Cert.ReferenceIdeal Cert.ReferenceIdeal.Gen ValueIdx Idealize.ShloMosaic.StableHlo

section AnyValues
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault, leaving in the result buffer what the fold
    through its six segments (two host stretches, the pooling region, the gate's host stretch, the scaling region, the
    host tail) leaves there, and the seven arguments as launched. -/
theorem run_fold : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end AnyValues

section AtIdeal
variable (m : (ℓ : Loc nD τ sig) → Buf (Elt Ideal) ℓ) (ρ : Dev nD → PrngReg)

/-- An argument reaches the pooling region as launched: the two host stretches before it write other buffers. -/
theorem W2_arg (c : Dev nD) :
    W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6) := by
  refine ⟨?_, ?_, ?_, ?_, ?_, ?_⟩ <;>
  · dsimp only [W2, W1, W0, hostOps0_1, hostOps0]
    after_results

/-- The pooling region leaves its input (the padded activation) in place and writes the pooled sums. -/
theorem W3_v1 (c : Dev nD) : W3 m ρ c (Proc.devRef .tc main_v1) = padOf (m ((c : Thread nD τ).loc main_arg0)) := by
  rw [show W3 m ρ c (Proc.devRef .tc main_v1) = (dat0 (V2 m ρ) c).arrAt 0 cfg0.N from W3_arr m ρ c 0,
    (dat0 (V2 m ρ) c).arrAt_in 0 rfl _, A_eq0]
  exact W2_v1 m ρ c

theorem W3_v2 (c : Dev nD) : W3 m ρ c (Proc.devRef .tc main_v2) = pooledArr (padOf (m ((c : Thread nD τ).loc main_arg0))) := by
  rw [show W3 m ρ c (Proc.devRef .tc main_v2) = (dat0 (V2 m ρ) c).arrAt 1 cfg0.N from W3_arr m ρ c 1, final_pool]
  exact congrArg pooledArr (W2_v1 m ρ c)

/-- The result buffer at the end of the fold is the specification's second arrangement of the launch arguments. -/
theorem W6_v31 (c : Dev nD) : W6 m ρ c (Proc.devRef .tc main_v31)
    = Cert.MixerSpec.resultR (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  obtain ⟨g1, g2, g3, g4, g5, g6⟩ := W2_arg m ρ c
  have n1 : W3 m ρ c (Proc.devRef .tc main_arg1) = m ((c : Thread nD τ).loc main_arg1) := (W3_of_ne m ρ c main_arg1 (by decide)).trans g1
  have n2 : W3 m ρ c (Proc.devRef .tc main_arg2) = m ((c : Thread nD τ).loc main_arg2) := (W3_of_ne m ρ c main_arg2 (by decide)).trans g2
  have n3 : W3 m ρ c (Proc.devRef .tc main_arg3) = m ((c : Thread nD τ).loc main_arg3) := (W3_of_ne m ρ c main_arg3 (by decide)).trans g3
  have n4 : W3 m ρ c (Proc.devRef .tc main_arg4) = m ((c : Thread nD τ).loc main_arg4) := (W3_of_ne m ρ c main_arg4 (by decide)).trans g4
  have n5 : W3 m ρ c (Proc.devRef .tc main_arg5) = m ((c : Thread nD τ).loc main_arg5) := (W3_of_ne m ρ c main_arg5 (by decide)).trans g5
  have n6 : W3 m ρ c (Proc.devRef .tc main_arg6) = m ((c : Thread nD τ).loc main_arg6) := (W3_of_ne m ρ c main_arg6 (by decide)).trans g6
  have e28 : V4 m ρ c main_v28 = gateV (pooledArr (padOf (m ((c : Thread nD τ).loc main_arg0)))) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
    show StableHlo.after hostOps1 (W3 m ρ c) (Proc.devRef .tc main_v28) = _
    rw [after1_v28, W3_v2, n1, n2, n3, n4, n5, n6]
  have e1 : V4 m ρ c main_v1 = padOf (m ((c : Thread nD τ).loc main_arg0)) := by
    show StableHlo.after hostOps1 (W3 m ρ c) (Proc.devRef .tc main_v1) = _
    rw [after1_v1, W3_v1]
  show StableHlo.after hostOps2 (W5 m ρ c) (Proc.devRef .tc main_v31) = _
  rw [after2_v31, show W5 m ρ c (Proc.devRef .tc main_v29) = (dat1 (V4 m ρ) c).arrAt 2 cfg1.N from W5_arr m ρ c 2,
    final_scale, e28, e1]
  exact result_eq _ _ _ _ _ _ _

/-- THE REFERENCE'S RUN, read: the result buffer ends at the specification's second arrangement of the seven argument
    arrays, and the arguments end unchanged. -/
theorem run : θ_run (defs (F := Ideal)) (onTc (τ := τ) (main (F := Ideal))) ⟨m, fun _ => 0, ρ⟩ (fun r => ∀ c : Dev nD,
      r.2.mem ((c.tc : Thread nD τ).loc main_v31)
          = Cert.MixerSpec.resultR (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W6_v31 m ρ c), (h c).2⟩) (run_fold m ρ)

end AtIdeal

end Cert.ReferenceIdeal.RValue

end
-- ==== Proof.lean ====
/-
  The certificate of the gated channel mixer: a fused kernel against a two-kernel reference.

  Both programs compute, for an activation `x[b, c, h, v]`, the result `x[b, c, h, v] · gate b c`, where the gate is the
  logistic function of a 1×1 convolution (folded with batch-norm and the mean factor `1/3136`) applied to the spatial
  sums of `x`. The fused kernel handles one batch element per grid point: it sums each channel's 3136 entries at once,
  multiplies the folded weight by the column of sums on the matrix unit, applies the logistic function as one operation
  and scales the resident slab. The reference pads the flattened spatial axis to 3200, accumulates each channel's sum
  tile by tile (25 tiles of 128) in a first kernel, computes the gates on the host with the logistic function spelled
  out as `1 / (1 + exp(−z))`, and scales tile by tile in a second kernel.

  Over the extended reals the two are the same function of the seven arguments, index by index: addition is associative
  and commutative there, the 64 padded positions add zero, a product's factors commute, and the logistic function IS
  `1 / (1 + exp(−z))`; the literal words for ε and 1/3136 are the same on both sides and are never evaluated. No law used
  needs finiteness, so the precondition is not opened.

  Each program's run is read as a value in its own modules (the kernel's: `KernelValue…`; the reference's: `Ref…`),
  both against one specification (`Spec`), whose two arrangements `SpecAlgebra` proves equal. The three frames are the
  generated ones; the ideal pass rewrote nothing, so `preserves` is `True`.
-/
import proofs.«127554_g2000504790337708_pallasbulk_234_2_alg».proof.Defs
import proofs.«127554_g2000504790337708_pallasbulk_234_2_alg».proof.Proof.Gen.Kernel
import proofs.«127554_g2000504790337708_pallasbulk_234_2_alg».proof.Proof.Gen.Kernel.Frame
import proofs.«127554_g2000504790337708_pallasbulk_234_2_alg».proof.Proof.Gen.KernelIdeal
import proofs.«127554_g2000504790337708_pallasbulk_234_2_alg».proof.Proof.Gen.KernelIdeal.Frame
import proofs.«127554_g2000504790337708_pallasbulk_234_2_alg».proof.Proof.Gen.ReferenceIdeal
import proofs.«127554_g2000504790337708_pallasbulk_234_2_alg».proof.Proof.Gen.ReferenceIdeal.Frame
import proofs.«127554_g2000504790337708_pallasbulk_234_2_alg».proof.Proof.Gen.Pre_finite_inputs
import proofs.«127554_g2000504790337708_pallasbulk_234_2_alg».proof.Proof.SpecAlgebra
import proofs.«127554_g2000504790337708_pallasbulk_234_2_alg».proof.Proof.KernelValueRun
import proofs.«127554_g2000504790337708_pallasbulk_234_2_alg».proof.Proof.RefRun

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- At the ideal values the fused kernel's result array ends at the specification's first arrangement of its arguments and
    the reference's at the second arrangement of arguments that agree; the two arrangements are one function. -/
theorem algebraic : Cert.algebraic_KernelIdeal_ReferenceIdeal := by
  intro m ρ m' ρ' _ hagree
  refine ⟨fun c => Cert.MixerSpec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [Cert.MixerSpec.resultR_eq_resultK, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
